-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x80 : Shape := ⟨2, ![524288, 80]⟩
abbrev S_ : Shape := ⟨0, ![]⟩

class Facts : Prop where
  bcast_S_S524288x80 : S_.BroadcastsInDim S524288x80 (![] : Fin 0 → Fin S524288x80.rank)
  reducesTo_S524288x80_S_d0_1 : S524288x80.ReducesTo [0, 1] S_
  h_S_ : 0 < S_.numel

variable [Facts]

def fn {F : FTy → Type} [FloatOps F] (main_arg0 : FVec F S524288x80 .f32) (main_arg1 : IVec S524288x80 32) (main_arg2 : FVec F S524288x80 .f32) : IVec S_ 1 :=
  let main_v0 : FVec F S524288x80 .f32 := Host.absf main_arg0
  let main_cst : FVec F S_ .f32 := constant S_ .f32 0x7F800000#32
  let main_v1 : FVec F S524288x80 .f32 := broadcastInDim S524288x80 ![] bcast_S_S524288x80 main_cst
  let main_v2 : IVec S524288x80 1 := cmpf .olt main_v0 main_v1
  let main_c : IVec S_ 1 := constantI S_ 1 1#1
  let main_v3 : IVec S_ 1 := (fun x v => Host.reduce IntOp.andi x v reducesTo_S524288x80_S_d0_1 h_S_) main_v2 main_c
  let main_v4 : FVec F S524288x80 .f32 := Host.absf main_arg2
  let main_cst_0 : FVec F S_ .f32 := constant S_ .f32 0x7F800000#32
  let main_v5 : FVec F S524288x80 .f32 := broadcastInDim S524288x80 ![] bcast_S_S524288x80 main_cst_0
  let main_v6 : IVec S524288x80 1 := cmpf .olt main_v4 main_v5
  let main_c_1 : IVec S_ 1 := constantI S_ 1 1#1
  let main_v7 : IVec S_ 1 := (fun x v => Host.reduce IntOp.andi x v reducesTo_S524288x80_S_d0_1 h_S_) main_v6 main_c_1
  let main_v8 : IVec S_ 1 := andi main_v3 main_v7
  main_v8
-- ==== Kernel.lean ====
abbrev S524288x80 : Shape := ⟨2, ![524288, 80]⟩
abbrev S327680x128 : Shape := ⟨2, ![327680, 128]⟩
abbrev S2x8x128 : Shape := ⟨3, ![2, 8, 128]⟩
abbrev S16384x128 : Shape := ⟨2, ![16384, 128]⟩
abbrev S1x8x128 : Shape := ⟨3, ![1, 8, 128]⟩
abbrev S1x16384x128 : Shape := ⟨3, ![1, 16384, 128]⟩
abbrev S1 : Shape := ⟨1, ![1]⟩
abbrev S1x1x1 : Shape := ⟨3, ![1, 1, 1]⟩
abbrev S10 : Shape := ⟨1, ![10]⟩
abbrev S118 : Shape := ⟨1, ![118]⟩
abbrev S128 : Shape := ⟨1, ![128]⟩
abbrev S1x128 : Shape := ⟨2, ![1, 128]⟩
abbrev S6x128 : Shape := ⟨2, ![6, 128]⟩
abbrev S8x128 : Shape := ⟨2, ![8, 128]⟩
abbrev S_ : Shape := ⟨0, ![]⟩
abbrev S1x10 : Shape := ⟨2, ![1, 10]⟩

abbrev nBuf : Space → Nat
  | .hbm => 45
  | .vmem => 8
  | .smem => 0
  | _ => 0

abbrev bufTy : (tb : Table) → Fin (tcTables nBuf tb) → BufTy
  | .hbm, ⟨0, _⟩ => ⟨S524288x80, .f32⟩
  | .hbm, ⟨1, _⟩ => ⟨S524288x80, .i32⟩
  | .hbm, ⟨2, _⟩ => ⟨S524288x80, .f32⟩
  | .hbm, ⟨3, _⟩ => ⟨S327680x128, .f32⟩
  | .hbm, ⟨4, _⟩ => ⟨S327680x128, .i32⟩
  | .hbm, ⟨5, _⟩ => ⟨S327680x128, .f32⟩
  | .hbm, ⟨6, _⟩ => ⟨S2x8x128, .f32⟩
  | .hbm, ⟨7, _⟩ => ⟨S_, .f32⟩
  | .hbm, ⟨8, _⟩ => ⟨S8x128, .f32⟩
  | .hbm, ⟨9, _⟩ => ⟨S1x10, .f32⟩
  | .hbm, ⟨10, _⟩ => ⟨S10, .f32⟩
  | .hbm, ⟨11, _⟩ => ⟨S1x10, .f32⟩
  | .hbm, ⟨12, _⟩ => ⟨S10, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S10, .f32⟩
  | .hbm, ⟨19, _⟩ => ⟨S10, .i1⟩
  | .hbm, ⟨20, _⟩ => ⟨S10, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S10, .f32⟩
  | .hbm, ⟨27, _⟩ => ⟨S10, .i1⟩
  | .hbm, ⟨28, _⟩ => ⟨S_, .f32⟩
  | .hbm, ⟨29, _⟩ => ⟨S10, .f32⟩
  | .hbm, ⟨30, _⟩ => ⟨S10, .f32⟩
  | .hbm, ⟨31, _⟩ => ⟨S10, .f32⟩
  | .hbm, ⟨32, _⟩ => ⟨S10, .f32⟩
  | .hbm, ⟨33, _⟩ => ⟨S_, .f32⟩
  | .hbm, ⟨34, _⟩ => ⟨S_, .f32⟩
  | .hbm, ⟨35, _⟩ => ⟨S10, .f32⟩
  | .hbm, ⟨36, _⟩ => ⟨S10, .f32⟩
  | .hbm, ⟨37, _⟩ => ⟨S10, .f32⟩
  | .hbm, ⟨38, _⟩ => ⟨S10, .f32⟩
  | .hbm, ⟨39, _⟩ => ⟨S10, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .i32⟩
  | .local _ .vmem, ⟨3, _⟩ => ⟨S16384x128, .i32⟩
  | .local _ .vmem, ⟨4, _⟩ => ⟨S16384x128, .f32⟩
  | .local _ .vmem, ⟨5, _⟩ => ⟨S16384x128, .f32⟩
  | .local _ .vmem, ⟨6, _⟩ => ⟨S1x8x128, .f32⟩
  | .local _ .vmem, ⟨7, _⟩ => ⟨S1x8x128, .f32⟩
  | _, _ => ⟨S524288x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S524288x80_S327680x128 : S524288x80.ShapeCasts S327680x128
  inb_S1x8x128_S1x8x128_0_0_0 : ∀ a, (![0, 0, 0] : Fin 3 → Nat) a + S1x8x128.size a ≤ S1x8x128.size a
  h_S1x8x128 : 0 < S1x8x128.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  natLt_1_32 : 1 < 32
  shapeCasts_S16384x128_S1x16384x128 : S16384x128.ShapeCasts S1x16384x128
  reduces_S1x16384x128_S1 : S1x16384x128.Reduces [1, 2] S1
  shapeCasts_S1_S1x1x1 : S1.ShapeCasts S1x1x1
  inpos_S1x1x1_p0_0_0 : ∀ a, (![0, 0, 0] : Fin 3 → Nat) a < S1x1x1.size a
  concatenates_S1_S1_S1_S1_S1_S1_S1_S1_S1_S1_S10_d0 : Shape.Concatenates [S1, S1, S1, S1, S1, S1, S1, S1, S1, S1] S10 0
  concatenates_S10_S118_S128_d0 : Shape.Concatenates [S10, S118] S128 0
  shapeCasts_S128_S1x128 : S128.ShapeCasts S1x128
  concatenates_S1x128_S1x128_S6x128_S8x128_d0 : Shape.Concatenates [S1x128, S1x128, S6x128] S8x128 0
  shapeCasts_S1x8x128_S1x8x128 : S1x8x128.ShapeCasts S1x8x128
  shapeCasts_S8x128_S1x8x128 : S8x128.ShapeCasts S1x8x128
  reducesTo_S2x8x128_S8x128_d0 : S2x8x128.ReducesTo [0] S8x128
  h_S_ : 0 < S_.numel
  slices_S8x128_S1x10_0_0 : S8x128.Slices ![0, 0] S1x10
  shapeCasts_S1x10_S10 : S1x10.ShapeCasts S10
  slices_S8x128_S1x10_1_0 : S8x128.Slices ![1, 0] S1x10
  reducesTo_S10_S_d0 : S10.ReducesTo [0] S_
  bcast_S_S10 : S_.BroadcastsInDim S10 (![] : Fin 0 → Fin S10.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S327680x128.size a
  hwx0_0 : ∀ i : grid0.Coords, EltTy.bits .f32 = 32 ∨ (Rect.block (s := S327680x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S327680x128.size a
  hwx0_1 : ∀ i : grid0.Coords, EltTy.bits .i32 = 32 ∨ (Rect.block (s := S327680x128) S16384x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S327680x128.size a
  hwx0_2 : ∀ i : grid0.Coords, EltTy.bits .f32 = 32 ∨ (Rect.block (s := S327680x128) S16384x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16384x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x80 : Shape := ⟨2, ![524288, 80]⟩
abbrev S_ : Shape := ⟨0, ![]⟩
abbrev S41943040 : Shape := ⟨1, ![41943040]⟩
abbrev S10 : Shape := ⟨1, ![10]⟩
abbrev S41943040x1 : Shape := ⟨2, ![41943040, 1]⟩
abbrev S524288x80x1 : Shape := ⟨3, ![524288, 80, 1]⟩

abbrev nBuf : Space → Nat
  | .hbm => 95
  | .vmem => 0
  | .smem => 0
  | _ => 0

abbrev bufTy : (tb : Table) → Fin (tcTables nBuf tb) → BufTy
  | .hbm, ⟨0, _⟩ => ⟨S524288x80, .f32⟩
  | .hbm, ⟨1, _⟩ => ⟨S524288x80, .i32⟩
  | .hbm, ⟨2, _⟩ => ⟨S524288x80, .f32⟩
  | .hbm, ⟨3, _⟩ => ⟨S524288x80, .f32⟩
  | .hbm, ⟨4, _⟩ => ⟨S_, .f32⟩
  | .hbm, ⟨5, _⟩ => ⟨S524288x80, .f32⟩
  | .hbm, ⟨6, _⟩ => ⟨S524288x80, .i1⟩
  | .hbm, ⟨7, _⟩ => ⟨S524288x80, .i32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S524288x80, .f32⟩
  | .hbm, ⟨14, _⟩ => ⟨S524288x80, .f32⟩
  | .hbm, ⟨15, _⟩ => ⟨S_, .f32⟩
  | .hbm, ⟨16, _⟩ => ⟨S524288x80, .f32⟩
  | .hbm, ⟨17, _⟩ => ⟨S524288x80, .f32⟩
  | .hbm, ⟨18, _⟩ => ⟨S_, .f32⟩
  | .hbm, ⟨19, _⟩ => ⟨S524288x80, .f32⟩
  | .hbm, ⟨20, _⟩ => ⟨S524288x80, .f32⟩
  | .hbm, ⟨21, _⟩ => ⟨S524288x80, .f32⟩
  | .hbm, ⟨22, _⟩ => ⟨S524288x80, .f32⟩
  | .hbm, ⟨23, _⟩ => ⟨S_, .f32⟩
  | .hbm, ⟨24, _⟩ => ⟨S524288x80, .f32⟩
  | .hbm, ⟨25, _⟩ => ⟨S524288x80, .f32⟩
  | .hbm, ⟨26, _⟩ => ⟨S524288x80, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S524288x80, .i32⟩
  | .hbm, ⟨31, _⟩ => ⟨S524288x80, .i32⟩
  | .hbm, ⟨32, _⟩ => ⟨S_, .i32⟩
  | .hbm, ⟨33, _⟩ => ⟨S524288x80, .i32⟩
  | .hbm, ⟨34, _⟩ => ⟨S524288x80, .i32⟩
  | .hbm, ⟨35, _⟩ => ⟨S41943040, .i1⟩
  | .hbm, ⟨36, _⟩ => ⟨S41943040, .f32⟩
  | .hbm, ⟨37, _⟩ => ⟨S41943040, .i32⟩
  | .hbm, ⟨38, _⟩ => ⟨S_, .f32⟩
  | .hbm, ⟨39, _⟩ => ⟨S10, .f32⟩
  | .hbm, ⟨40, _⟩ => ⟨S41943040x1, .i32⟩
  | .hbm, ⟨41, _⟩ => ⟨S10, .f32⟩
  | .hbm, ⟨42, _⟩ => ⟨S_, .f32⟩
  | .hbm, ⟨43, _⟩ => ⟨S10, .f32⟩
  | .hbm, ⟨44, _⟩ => ⟨S10, .i1⟩
  | .hbm, ⟨45, _⟩ => ⟨S10, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S10, .f32⟩
  | .hbm, ⟨53, _⟩ => ⟨S10, .i1⟩
  | .hbm, ⟨54, _⟩ => ⟨S_, .f32⟩
  | .hbm, ⟨55, _⟩ => ⟨S10, .f32⟩
  | .hbm, ⟨56, _⟩ => ⟨S10, .f32⟩
  | .hbm, ⟨57, _⟩ => ⟨S10, .f32⟩
  | .hbm, ⟨58, _⟩ => ⟨S10, .f32⟩
  | .hbm, ⟨59, _⟩ => ⟨S_, .f32⟩
  | .hbm, ⟨60, _⟩ => ⟨S_, .f32⟩
  | .hbm, ⟨61, _⟩ => ⟨S10, .f32⟩
  | .hbm, ⟨62, _⟩ => ⟨S10, .f32⟩
  | .hbm, ⟨63, _⟩ => ⟨S10, .f32⟩
  | .hbm, ⟨64, _⟩ => ⟨S10, .f32⟩
  | .hbm, ⟨65, _⟩ => ⟨S_, .i32⟩
  | .hbm, ⟨66, _⟩ => ⟨S524288x80, .i32⟩
  | .hbm, ⟨67, _⟩ => ⟨S524288x80, .i1⟩
  | .hbm, ⟨68, _⟩ => ⟨S_, .i32⟩
  | .hbm, ⟨69, _⟩ => ⟨S524288x80, .i32⟩
  | .hbm, ⟨70, _⟩ => ⟨S524288x80, .i32⟩
  | .hbm, ⟨71, _⟩ => ⟨S524288x80, .i32⟩
  | .hbm, ⟨72, _⟩ => ⟨S524288x80x1, .i32⟩
  | .hbm, ⟨73, _⟩ => ⟨S524288x80, .f32⟩
  | .hbm, ⟨74, _⟩ => ⟨S_, .f32⟩
  | .hbm, ⟨75, _⟩ => ⟨S_, .f32⟩
  | .hbm, ⟨76, _⟩ => ⟨S524288x80, .f32⟩
  | .hbm, ⟨77, _⟩ => ⟨S524288x80, .f32⟩
  | .hbm, ⟨78, _⟩ => ⟨S_, .f32⟩
  | .hbm, ⟨79, _⟩ => ⟨S524288x80, .f32⟩
  | .hbm, ⟨80, _⟩ => ⟨S524288x80, .f32⟩
  | .hbm, ⟨81, _⟩ => ⟨S524288x80, .f32⟩
  | .hbm, ⟨82, _⟩ => ⟨S524288x80, .f32⟩
  | .hbm, ⟨83, _⟩ => ⟨S524288x80, .f32⟩
  | .hbm, ⟨84, _⟩ => ⟨S524288x80, .f32⟩
  | .hbm, ⟨85, _⟩ => ⟨S524288x80, .f32⟩
  | .hbm, ⟨86, _⟩ => ⟨S524288x80, .f32⟩
  | .hbm, ⟨87, _⟩ => ⟨S524288x80, .f32⟩
  | .hbm, ⟨88, _⟩ => ⟨S524288x80, .f32⟩
  | .hbm, ⟨89, _⟩ => ⟨S524288x80, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S524288x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_c_5 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_13 : Ref sig .tc := ⟨.hbm, 65, rfl⟩
abbrev main_v40 : Ref sig .tc := ⟨.hbm, 66, rfl⟩
abbrev main_v41 : Ref sig .tc := ⟨.hbm, 67, rfl⟩
abbrev main_c_14 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_15 : Ref sig .tc := ⟨.hbm, 74, rfl⟩
abbrev main_call2_v0 : Ref sig .tc := ⟨.hbm, 75, rfl⟩
abbrev main_call2_v1 : Ref sig .tc := ⟨.hbm, 76, rfl⟩
abbrev main_v47 : Ref sig .tc := ⟨.hbm, 77, rfl⟩
abbrev main_cst_16 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_17 : Ref sig .tc := ⟨.hbm, 90, rfl⟩
abbrev main_v59 : Ref sig .tc := ⟨.hbm, 91, rfl⟩
abbrev main_v60 : Ref sig .tc := ⟨.hbm, 92, rfl⟩
abbrev main_cst_18 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  bcast_S_S524288x80 : S_.BroadcastsInDim S524288x80 (![] : Fin 0 → Fin S524288x80.rank)
  natLt_1_32 : 1 < 32
  reducesTo_S524288x80_S_d0_1 : S524288x80.ReducesTo [0, 1] S_
  h_S_ : 0 < S_.numel
  shapeCasts_S524288x80_S41943040 : S524288x80.ShapeCasts S41943040
  bcast_S_S10 : S_.BroadcastsInDim S10 (![] : Fin 0 → Fin S10.rank)
  bcast_S41943040_S41943040x1_0 : S41943040.BroadcastsInDim S41943040x1 (![0] : Fin 1 → Fin S41943040x1.rank)
  reducesTo_S10_S_d0 : S10.ReducesTo [0] S_
  bcast_S524288x80_S524288x80x1_0_1 : S524288x80.BroadcastsInDim S524288x80x1 (![0, 1] : Fin 2 → Fin S524288x80x1.rank)
  scatter_S10_S41943040x1_S41943040_n_0_0_1_wf : ScatterDims.WF S10 S41943040x1 S41943040 [] [0] [0] 1
  gather_S10_S524288x80x1_S524288x80_n_0_n_n_0_2_1_wf : GatherDims.WF S10 S524288x80x1 S524288x80 [] [0] [] [0] [] 2 ![1]

variable [Facts₀]

def scatter_S10_S41943040x1_S41943040_n_0_0_1 : ScatterDims S10 S41943040x1 S41943040 where
  updateWindowDims := []
  insertedWindowDims := [0]
  scatterDimsToOperandDims := [0]
  indexVectorDim := 1
  wf := scatter_S10_S41943040x1_S41943040_n_0_0_1_wf
def gather_S10_S524288x80x1_S524288x80_n_0_n_n_0_2_1 : GatherDims S10 S524288x80x1 S524288x80 where
  offsetDims := []
  collapsedSliceDims := [0]
  operandBatchingDims := []
  startIndicesBatchingDims := []
  startIndexMap := [0]
  indexVectorDim := 2
  sliceSizes := ![1]
  wf := gather_S10_S524288x80x1_S524288x80_n_0_n_n_0_2_1_wf

class Facts : Prop extends Facts₀ where

variable [Facts]
-- ==== Proof.Spec.lean ====
/-
  The loss both programs compute, as one function of the three argument arrays read at the ideal instance
  (floats are extended reals, every operation exact).

  Per element e (a prediction x, an integer target t, a weight w):
    the target as a real, tgt t; the sigmoid s of x; the bin  min 9 (max 0 (trunc (|s − tgt t| · 10)));
    the binary cross entropy  max x 0 − x · tgt t + log (1 + exp (−|x|));  the validity bit [0 < w].
  Over the array: cnt b, the number of valid elements in bin b; tot = max (number of valid elements) 1;
  nne = max (number of bins with a valid element) 1; the bin weight
    pbw b = (tot / max (cnt b) 1 if 0 < cnt b, else 0) / nne;
  and the loss  (∑ over valid e of bce e · pbw (bin e) · w e) / tot.

  Two spellings of it are stated: `Kform` sums bin by bin (first the elements of a bin, then the bins, the total
  taken as the sum of the bins' counts, the sigmoid and the exponent written through exp (0 − |x|)), `Rform`
  element by element (each element looks its bin's weight up, the total counted directly, the sigmoid
  1 / (1 + exp (−x))). They agree when x and w are finite (Proof/Bridge.lean).
-/
import Idealize.ShloMosaic.PureOps.Ideal
import Idealize.ShloMosaic.Lib.ValueIdx

noncomputable section

namespace Cert.Spec

open Idealize.ShloMosaic
open scoped BigOperators

/-- The shape of the three argument arrays; its indices are the elements. -/
abbrev SE : Shape := ⟨2, ![524288, 80]⟩

/-- The indicator of a proposition, as an extended real. -/
def ind (p : Prop) [Decidable p] : EReal := if p then 1 else 0

/-- The integer target as a real. -/
def tgt (t : BitVec 32) : EReal := ((t.toInt : ℝ) : EReal)

/-- The absolute value. -/
def ab (x : EReal) : EReal := max x (-x)

/-- The sigmoid through one exponential of −|x|: 1 / (1 + e) for 0 ≤ x, e / (1 + e) below. -/
def sigK (x : EReal) : EReal :=
  if 0 ≤ x then Ideal.div 1 (1 + Ideal.exp (0 - ab x)) else Ideal.div (Ideal.exp (0 - ab x)) (1 + Ideal.exp (0 - ab x))

/-- The sigmoid as 1 / (1 + exp (−x)). -/
def sigR (x : EReal) : EReal := Ideal.div 1 (1 + Ideal.exp (-x))

/-- The bin of an element from its sigmoid s and target t: |s − t| · 10 truncated to an integer, clipped to 0 … 9. -/
def binOf (s : EReal) (t : BitVec 32) : BitVec 32 :=
  IntOp.minsi 9#32 (IntOp.maxsi 0#32 (Ideal.fptosi 32 (ab (s - tgt t) * 10)))

/-- The cross entropy with the exponent written 0 − |x|. -/
def bceK (x : EReal) (t : BitVec 32) : EReal := max x 0 - x * tgt t + Ideal.log1p (Ideal.exp (0 - ab x))

/-- The cross entropy with the exponent written −|x|. -/
def bceR (x : EReal) (t : BitVec 32) : EReal := max x 0 - x * tgt t + Ideal.log1p (Ideal.exp (-(ab x)))

/-- Bin number k as a 32-bit word. -/
def bv (k : Fin 10) : BitVec 32 := BitVec.ofNat 32 k.val

/-- The number of valid elements whose bin is b. -/
def cntOf (bin : SE.Idx → BitVec 32) (w : SE.Idx → EReal) (b : BitVec 32) : EReal :=
  ∑ e : SE.Idx, ind (bin e = b) * ind (0 < w e)

/-- The number of bins holding a valid element, at least 1. -/
def nne (cnt : BitVec 32 → EReal) : EReal := max (∑ k : Fin 10, ind (0 < cnt (bv k))) 1

/-- The weight of bin b. -/
def pbw (cnt : BitVec 32 → EReal) (tot : EReal) (b : BitVec 32) : EReal :=
  Ideal.div (if 0 < cnt b then Ideal.div tot (max (cnt b) 1) else 0) (nne cnt)

/-- The bin of element e, the sigmoid spelled through exp (0 − |x|). -/
def binK (x : SE.Idx → EReal) (tg : SE.Idx → BitVec 32) (e : SE.Idx) : BitVec 32 := binOf (sigK (x e)) (tg e)

/-- The bin of element e, the sigmoid spelled 1 / (1 + exp (−x)). -/
def binR (x : SE.Idx → EReal) (tg : SE.Idx → BitVec 32) (e : SE.Idx) : BitVec 32 := binOf (sigR (x e)) (tg e)

/-- The weighted cross entropy summed over the valid elements of bin b. -/
def sumOf (x : SE.Idx → EReal) (tg : SE.Idx → BitVec 32) (w : SE.Idx → EReal) (b : BitVec 32) : EReal :=
  ∑ e : SE.Idx, ind (binK x tg e = b) * ((bceK (x e) (tg e) * w e) * ind (0 < w e))

/-- The total of the bins' counts, at least 1. -/
def totK (x : SE.Idx → EReal) (tg : SE.Idx → BitVec 32) (w : SE.Idx → EReal) : EReal :=
  max (∑ k : Fin 10, cntOf (binK x tg) w (bv k)) 1

/-- The number of valid elements, at least 1. -/
def totR (w : SE.Idx → EReal) : EReal := max (∑ e : SE.Idx, ind (0 < w e)) 1

/-- The loss, bin by bin. -/
def Kform (x : SE.Idx → EReal) (tg : SE.Idx → BitVec 32) (w : SE.Idx → EReal) : EReal :=
  Ideal.div (∑ k : Fin 10, pbw (cntOf (binK x tg) w) (totK x tg w) (bv k) * sumOf x tg w (bv k)) (totK x tg w) * 1

/-- The loss, element by element. -/
def Rform (x : SE.Idx → EReal) (tg : SE.Idx → BitVec 32) (w : SE.Idx → EReal) : EReal :=
  Ideal.div (∑ e : SE.Idx, (bceR (x e) (tg e) * (if 0 < w e then pbw (cntOf (binR x tg) w) (totR w) (binR x tg e) else 0)) * w e)
    (totR w) * 1

end Cert.Spec

end
-- ==== Proof.KElem.lean ====
/-
  Three facts about a block of 16384 × 128 elements read at the ideal instance, stated over variables so that the
  kernel's payloads can cite them:
  the 0/1 mask "the bin word equals b" widened to 32 bits and converted to a float is the indicator of the equation;
  the sum of a block over both of its axes (viewed [1, 16384, 128], reduced over axes 1 and 2 into [1], viewed
  [1, 1, 1] and read at its one position) is the sum over every index of the block;
  hence a masked block sum is the sum of the indicator times the summand.
-/
import proofs.«150911_j10273561772276_2_alg».proof.Proof.Spec
import Idealize.ShloMosaic.PureOps.Ideal.Laws
import Idealize.ShloMosaic.Lib.ValueIdx
import Idealize.ShloMosaic.Lib.Pipeline.Value

noncomputable section

namespace Cert.KElem

open Idealize.ShloMosaic Cert.Spec
open scoped BigOperators

/-- A block of an input window, -/
abbrev SB : Shape := ⟨2, ![16384, 128]⟩
/-- the same with a leading unit axis, -/
abbrev SB1 : Shape := ⟨3, ![1, 16384, 128]⟩
/-- a one-element vector and the same at rank three. -/
abbrev SU : Shape := ⟨1, ![1]⟩
abbrev SU3 : Shape := ⟨3, ![1, 1, 1]⟩

/-- The comparison "v = b" as a bit, widened and converted, is the indicator of v = b. -/
theorem mask_apply (v : IVec SB 32) (b : BitVec 32) (h : 1 < 32) (j : SB.Idx) :
    (sitofp .f32 (extui 32 (cmpi .eq v (broadcast SB b)) h) : FVec Ideal SB .f32) j = ind (v j = b) := by
  show ((((BitVec.ofBool (v j == b)).setWidth 32).toInt : ℝ) : EReal) = ind (v j = b)
  unfold ind
  by_cases hb : v j = b
  · simp [hb]
  · have : (v j == b) = false := by simpa using hb
    simp [hb, this]

/-- The validity bit "0 < w" widened and converted is the indicator of 0 < w. -/
theorem valid_apply (w : FVec Ideal SB .f32) (z : EReal) (h : 1 < 32) (j : SB.Idx) :
    (sitofp .f32 (extui 32 (cmpf .ogt w (broadcast SB z)) h) : FVec Ideal SB .f32) j = ind (z < w j) := by
  show ((((BitVec.ofBool (decide (z < w j))).setWidth 32).toInt : ℝ) : EReal) = ind (z < w j)
  unfold ind
  by_cases hb : z < w j
  · simp [hb]
  · simp [hb]

/-- The block summed over both axes, read at the one position of the result. -/
theorem total_sum (y : FVec Ideal SB .f32) (h1 : SB.ShapeCasts SB1) (hr : SB1.Reduces [1, 2] SU)
    (h2 : SU.ShapeCasts SU3) (hp : ∀ a, (![0, 0, 0] : Fin 3 → Nat) a < SU3.size a) :
    extractAt ![0, 0, 0] (shapeCast SU3 (multiReduction .add [1, 2] SU (shapeCast SB1 y h1) 0x00000000#32 hr (.inl rfl) rfl) h2) hp
      = ∑ j : SB.Idx, y j := by
  unfold extractAt
  refine (Ideal.multiReduction_add_total (shapeCast SB1 y h1) 0x00000000#32 hr (fun b => by fin_cases b; rfl) (.inl rfl) rfl
    (Shape.reshapeEquiv h2 _)).trans ?_
  exact Equiv.sum_comp (Shape.reshapeEquiv h1) y

/-- A masked block sum. -/
def bsum (v : IVec SB 32) (y : FVec Ideal SB .f32) (b : BitVec 32) : EReal := ∑ j : SB.Idx, ind (v j = b) * y j

theorem masked_sum (v : IVec SB 32) (b : BitVec 32) (y : FVec Ideal SB .f32) (h : 1 < 32) (h1 : SB.ShapeCasts SB1)
    (hr : SB1.Reduces [1, 2] SU) (h2 : SU.ShapeCasts SU3) (hp : ∀ a, (![0, 0, 0] : Fin 3 → Nat) a < SU3.size a) :
    extractAt ![0, 0, 0] (shapeCast SU3 (multiReduction .add [1, 2] SU
        (shapeCast SB1 (mulf (sitofp .f32 (extui 32 (cmpi .eq v (broadcast SB b)) h) : FVec Ideal SB .f32) y) h1)
        0x00000000#32 hr (.inl rfl) rfl) h2) hp
      = bsum v y b := by
  rw [total_sum]
  exact Finset.sum_congr rfl fun j _ => by rw [ValueIdx.mulf_apply, mask_apply]

end Cert.KElem

end
-- ==== Proof.KPay.lean ====
/-
  The kernel body's twenty block sums, read at the ideal instance: for each bin b = 0 … 9 the count payload is the
  sum over the block of [bin word = b] times the validity value, and the weighted payload the sum of [bin word = b]
  times the weighted cross entropy. Each is the masked block sum of Proof/KElem.lean at that bin's word; the
  payloads differ only in which earlier values they are handed.
-/
import proofs.«150911_j10273561772276_2_alg».proof.Proof.Gen.KernelIdeal.Skeleton
import proofs.«150911_j10273561772276_2_alg».proof.Proof.KElem

noncomputable section

namespace Cert.KernelIdeal.KV

open Idealize.ShloMosaic Cert.KernelIdeal Cert.KernelIdeal.Gen Cert.KElem Cert.Spec

/-! ## The counts -/

theorem cnt0 (v9 : FVec Ideal S16384x128 .f32) (v32 : IVec S16384x128 32) (cst : Ideal .f32) :
    k0_pay13 (F := Ideal) v9 v32 cst = bsum v32 (k0_pay10 v9 cst) 0#32 := by
  unfold k0_pay13 k0_pay12
  exact masked_sum v32 0#32 _ _ _ _ _ _

theorem cnt1 (v9 : FVec Ideal S16384x128 .f32) (v32 : IVec S16384x128 32) (cst : Ideal .f32) :
    k0_pay16 (F := Ideal) v9 v32 cst = bsum v32 (k0_pay10 v9 cst) 1#32 := by
  unfold k0_pay16 k0_pay15
  exact masked_sum v32 1#32 _ _ _ _ _ _

theorem cnt2 (v9 : FVec Ideal S16384x128 .f32) (v32 : IVec S16384x128 32) (cst : Ideal .f32) :
    k0_pay19 (F := Ideal) v9 v32 cst = bsum v32 (k0_pay10 v9 cst) 2#32 := by
  unfold k0_pay19 k0_pay18
  exact masked_sum v32 2#32 _ _ _ _ _ _

theorem cnt3 (v42 : FVec Ideal S16384x128 .f32) (v32 : IVec S16384x128 32) :
    k0_pay23 (F := Ideal) v42 (k0_pay21 v32) = bsum v32 v42 3#32 := by
  unfold k0_pay23 k0_pay22 k0_pay21
  exact masked_sum v32 3#32 _ _ _ _ _ _

theorem cnt4 (v42 : FVec Ideal S16384x128 .f32) (v32 : IVec S16384x128 32) :
    k0_pay26 (F := Ideal) v32 v42 = bsum v32 v42 4#32 := by
  unfold k0_pay26 k0_pay25
  exact masked_sum v32 4#32 _ _ _ _ _ _

theorem cnt5 (v42 : FVec Ideal S16384x128 .f32) (v32 : IVec S16384x128 32) :
    k0_pay29 (F := Ideal) v32 v42 = bsum v32 v42 5#32 := by
  unfold k0_pay29 k0_pay28
  exact masked_sum v32 5#32 _ _ _ _ _ _

theorem cnt6 (v42 : FVec Ideal S16384x128 .f32) (v32 : IVec S16384x128 32) :
    k0_pay32 (F := Ideal) v32 v42 = bsum v32 v42 6#32 := by
  unfold k0_pay32 k0_pay31
  exact masked_sum v32 6#32 _ _ _ _ _ _

theorem cnt7 (v42 : FVec Ideal S16384x128 .f32) (v32 : IVec S16384x128 32) :
    k0_pay36 (F := Ideal) v32 v42 = bsum v32 v42 7#32 := by
  unfold k0_pay36 k0_pay35
  exact masked_sum v32 7#32 _ _ _ _ _ _

theorem cnt8 (v42 : FVec Ideal S16384x128 .f32) (v32 : IVec S16384x128 32) :
    k0_pay39 (F := Ideal) v32 v42 = bsum v32 v42 8#32 := by
  unfold k0_pay39 k0_pay38
  exact masked_sum v32 8#32 _ _ _ _ _ _

theorem cnt9 (v42 : FVec Ideal S16384x128 .f32) (v32 : IVec S16384x128 32) :
    k0_pay42 (F := Ideal) v32 v42 = bsum v32 v42 9#32 := by
  unfold k0_pay42 k0_pay41
  exact masked_sum v32 9#32 _ _ _ _ _ _

/-! ## The weighted sums -/

theorem sm0 (v9 : FVec Ideal S16384x128 .f32) (v32 : IVec S16384x128 32) (v38 : FVec Ideal S16384x128 .f32) (cst : Ideal .f32) :
    k0_pay14 (F := Ideal) v9 v32 v38 cst = bsum v32 (k0_pay11 v9 v38 cst) 0#32 := by
  unfold k0_pay14 k0_pay12
  exact masked_sum v32 0#32 _ _ _ _ _ _

theorem sm1 (v9 : FVec Ideal S16384x128 .f32) (v32 : IVec S16384x128 32) (v38 : FVec Ideal S16384x128 .f32) (cst : Ideal .f32) :
    k0_pay17 (F := Ideal) v9 v32 v38 cst = bsum v32 (k0_pay11 v9 v38 cst) 1#32 := by
  unfold k0_pay17 k0_pay15
  exact masked_sum v32 1#32 _ _ _ _ _ _

theorem sm2 (v9 : FVec Ideal S16384x128 .f32) (v32 : IVec S16384x128 32) (v38 : FVec Ideal S16384x128 .f32) (cst : Ideal .f32) :
    k0_pay20 (F := Ideal) v9 v32 v38 cst = bsum v32 (k0_pay11 v9 v38 cst) 2#32 := by
  unfold k0_pay20 k0_pay18
  exact masked_sum v32 2#32 _ _ _ _ _ _

theorem sm3 (v44 : FVec Ideal S16384x128 .f32) (v32 : IVec S16384x128 32) :
    k0_pay24 (F := Ideal) v44 (k0_pay21 v32) = bsum v32 v44 3#32 := by
  unfold k0_pay24 k0_pay22 k0_pay21
  exact masked_sum v32 3#32 _ _ _ _ _ _

theorem sm4 (v44 : FVec Ideal S16384x128 .f32) (v32 : IVec S16384x128 32) :
    k0_pay27 (F := Ideal) v32 v44 = bsum v32 v44 4#32 := by
  unfold k0_pay27 k0_pay25
  exact masked_sum v32 4#32 _ _ _ _ _ _

theorem sm5 (v44 : FVec Ideal S16384x128 .f32) (v32 : IVec S16384x128 32) :
    k0_pay30 (F := Ideal) v32 v44 = bsum v32 v44 5#32 := by
  unfold k0_pay30 k0_pay28
  exact masked_sum v32 5#32 _ _ _ _ _ _

theorem sm6 (v44 : FVec Ideal S16384x128 .f32) (v32 : IVec S16384x128 32) :
    k0_pay34 (F := Ideal) (k0_pay33 v32 v44) = bsum v32 v44 6#32 := by
  unfold k0_pay34 k0_pay33 k0_pay31
  exact masked_sum v32 6#32 _ _ _ _ _ _

theorem sm7 (v44 : FVec Ideal S16384x128 .f32) (v32 : IVec S16384x128 32) :
    k0_pay37 (F := Ideal) v32 v44 = bsum v32 v44 7#32 := by
  unfold k0_pay37 k0_pay35
  exact masked_sum v32 7#32 _ _ _ _ _ _

theorem sm8 (v44 : FVec Ideal S16384x128 .f32) (v32 : IVec S16384x128 32) :
    k0_pay40 (F := Ideal) v32 v44 = bsum v32 v44 8#32 := by
  unfold k0_pay40 k0_pay38
  exact masked_sum v32 8#32 _ _ _ _ _ _

theorem sm9 (v44 : FVec Ideal S16384x128 .f32) (v32 : IVec S16384x128 32) :
    k0_pay43 (F := Ideal) v32 v44 = bsum v32 v44 9#32 := by
  unfold k0_pay43 k0_pay41
  exact masked_sum v32 9#32 _ _ _ _ _ _

end Cert.KernelIdeal.KV

end
-- ==== Proof.KElt.lean ====
/-
  The kernel body's element-wise payloads read at an index of the block, at the ideal instance, in the words of
  Proof/Spec.lean: the bin word of an element is binOf (sigK x) t, its validity value the indicator of 0 < w, its
  weighted cross entropy (bceK x t · w) · [0 < w]. The body's float constants 0, 1 and 10 are read first.
-/
import proofs.«150911_j10273561772276_2_alg».proof.Proof.Gen.KernelIdeal.Skeleton
import proofs.«150911_j10273561772276_2_alg».proof.Proof.KElem
import Idealize.ShloMosaic.Lib.IdealHost

noncomputable section

namespace Cert.KernelIdeal.KV

open Idealize.ShloMosaic Cert.KernelIdeal Cert.KernelIdeal.Gen Cert.KElem Cert.Spec

/-- The word 0x41200000 is 10. -/
theorem ofBits_ten : Ideal.ofBits .f32 0x41200000#32 = 10 := by
  rw [show (10 : EReal) = ((10 : ℝ) : EReal) by norm_cast]
  simp [Ideal.ofBits, Ideal.ieee, -EReal.coe_mul]; norm_num

/-- A comparison bit chooses as the proposition it decides. -/
theorem select_ofBool {α : Type} (p : Prop) [Decidable p] (a b : α) :
    Scalar.select (BitVec.ofBool (decide p)) a b = if p then a else b := by
  unfold Scalar.select
  by_cases h : p <;> simp [h]

/-- The weight block as loaded. -/
theorem pay6_eq (x2 : Vec Ideal S16384x128 .f32) : k0_pay6 (F := Ideal) x2 = x2 := by
  unfold k0_pay6; exact shapeCast_self _ _

/-- The validity value of an element. -/
theorem pay10_apply (v9 : FVec Ideal S16384x128 .f32) (j : S16384x128.Idx) :
    k0_pay10 (F := Ideal) v9 (FloatOps.ofBits .f32 0#32) j = ind (0 < v9 j) := by
  unfold k0_pay10
  rw [show (FloatOps.ofBits (F := Ideal) .f32 0#32) = (0 : EReal) from Ideal.ofBits_zero_f32]
  exact valid_apply v9 0 _ j

/-- The bin word of an element. -/
theorem pay8_apply (x0 : Vec Ideal S16384x128 .f32) (x1 : Vec Ideal S16384x128 .i32) (j : S16384x128.Idx) :
    k0_pay8 (F := Ideal) x0 x1 j = binOf (sigK (x0 j)) (x1 j) := by
  unfold k0_pay8 k0_pay7 k0_pay5 k0_pay4
  simp only [shapeCast_self]
  show IntOp.minsi 9#32 (IntOp.maxsi 0#32 (Ideal.fptosi 32
      ((fun d : EReal => max d (-d)) (Scalar.select (Ideal.cmp .oge (x0 j) (Ideal.ofBits .f32 0x00000000#32))
          (Ideal.div (Ideal.ofBits .f32 0x3F800000#32) (Ideal.ofBits .f32 0x3F800000#32 + Ideal.exp (Ideal.ofBits .f32 0x00000000#32 - max (x0 j) (-(x0 j)))))
          (Ideal.div (Ideal.exp (Ideal.ofBits .f32 0x00000000#32 - max (x0 j) (-(x0 j)))) (Ideal.ofBits .f32 0x3F800000#32 + Ideal.exp (Ideal.ofBits .f32 0x00000000#32 - max (x0 j) (-(x0 j)))))
        - (((x1 j).toInt : ℝ) : EReal)) * Ideal.ofBits .f32 0x41200000#32))) = _
  rw [Ideal.ofBits_zero_f32, Ideal.ofBits_one_f32, ofBits_ten]
  unfold binOf sigK ab tgt Ideal.cmp
  rw [select_ofBool]

/-- The cross entropy of an element. -/
theorem pay9_apply (x0 : Vec Ideal S16384x128 .f32) (x1 : Vec Ideal S16384x128 .i32) (j : S16384x128.Idx) :
    k0_pay9 (F := Ideal) x0 x1 j = bceK (x0 j) (x1 j) := by
  unfold k0_pay9 k0_pay7 k0_pay5 k0_pay4
  simp only [shapeCast_self]
  show max (x0 j) (Ideal.ofBits .f32 0x00000000#32) - x0 j * (((x1 j).toInt : ℝ) : EReal)
      + Ideal.log1p (Ideal.exp (Ideal.ofBits .f32 0x00000000#32 - max (x0 j) (-(x0 j)))) = _
  rw [Ideal.ofBits_zero_f32]
  rfl

/-- The weighted cross entropy of an element. -/
theorem pay11_apply (v9 v38 : FVec Ideal S16384x128 .f32) (cst : Ideal .f32) (j : S16384x128.Idx) :
    k0_pay11 (F := Ideal) v9 v38 cst j = (v38 j * v9 j) * k0_pay10 (F := Ideal) v9 cst j := rfl

end Cert.KernelIdeal.KV

end
-- ==== Proof.KStats.lean ====
/-
  The statistics block the kernel body adds to its output block, read at the twenty entries the host lines after the
  call use: the body lays ten counts and ten weighted sums out as rows 0 and 1 of an [8, 128] tile (each padded with
  118 zeros, six zero rows below) and adds the tile to the block it loaded. So entry (0, 0, b) of the stored block is
  the loaded entry plus count b, and entry (0, 1, b) the loaded entry plus weighted sum b, for b < 10.
-/
import proofs.«150911_j10273561772276_2_alg».proof.Proof.Gen.KernelIdeal.Skeleton
import proofs.«150911_j10273561772276_2_alg».proof.Proof.KElem
import Idealize.ShloMosaic.Lib.ValueLayout

noncomputable section

namespace Cert.KernelIdeal.KV

open Idealize.ShloMosaic Idealize.ShloMosaic.ValueIdx Cert.KernelIdeal Cert.KernelIdeal.Gen Cert.KElem Cert.Spec

/-- Lane b < 10 as a lane of 128. -/
abbrev lane (b : Fin 10) : Fin 128 := ⟨b.val, by omega⟩

/-- Ten one-element vectors laid end to end, read at position b: the b-th. -/
theorem concat10_apply (cv : Fin 10 → EReal)
    (h : Shape.Concatenates [S1, S1, S1, S1, S1, S1, S1, S1, S1, S1] S10 0) (b : Fin 10) :
    concatenate S10 0 [⟨S1, broadcast S1 (cv 0)⟩, ⟨S1, broadcast S1 (cv 1)⟩, ⟨S1, broadcast S1 (cv 2)⟩, ⟨S1, broadcast S1 (cv 3)⟩,
      ⟨S1, broadcast S1 (cv 4)⟩, ⟨S1, broadcast S1 (cv 5)⟩, ⟨S1, broadcast S1 (cv 6)⟩, ⟨S1, broadcast S1 (cv 7)⟩,
      ⟨S1, broadcast S1 (cv 8)⟩, ⟨S1, broadcast S1 (cv 9)⟩] h (ix1 b) = cv b :=
  concatenate_ofFn_unit_apply (t := S10) (s₁ := S1) (0 : Fin 1) (fun n : Fin 10 => (broadcast S1 (cv n) : S1.Idx → EReal)) h rfl rfl
    (ix1 b) b rfl (ix1 (0 : Fin 1)) (fun b' hb' => by
      match b', hb' with
      | ⟨0, _⟩, hb' => exact absurd rfl hb')

/-- A row of the tile: ten statistics, then 118 zeros, viewed [1, 128]; at lane b < 10 it is statistic b. -/
theorem row_apply (cv : Fin 10 → EReal) (z : EReal)
    (h10 : Shape.Concatenates [S1, S1, S1, S1, S1, S1, S1, S1, S1, S1] S10 0) (h128 : Shape.Concatenates [S10, S118] S128 0)
    (hc : S128.ShapeCasts S1x128) (b : Fin 10) :
    shapeCast S1x128 (concatenate S128 0 [⟨S10, concatenate S10 0 [⟨S1, broadcast S1 (cv 0)⟩, ⟨S1, broadcast S1 (cv 1)⟩, ⟨S1, broadcast S1 (cv 2)⟩, ⟨S1, broadcast S1 (cv 3)⟩,
          ⟨S1, broadcast S1 (cv 4)⟩, ⟨S1, broadcast S1 (cv 5)⟩, ⟨S1, broadcast S1 (cv 6)⟩, ⟨S1, broadcast S1 (cv 7)⟩,
          ⟨S1, broadcast S1 (cv 8)⟩, ⟨S1, broadcast S1 (cv 9)⟩] h10⟩, ⟨S118, broadcast S118 z⟩] h128) hc
      (ix2 (0 : Fin 1) (lane b)) = cv b := by
  refine (shapeCast_a_1a_apply _ hc (0 : Fin 1) (lane b)).trans ?_
  refine (concatenate_pair_apply_left (t := S128) (s₁ := S10) (s₂ := S118) (0 : Fin 1) _ _ h128 (ix1 (lane b)) rfl (ix1 b) (fun x => by
      match x with
      | ⟨0, _⟩ => rfl)).trans ?_
  exact concat10_apply cv h10 b

/-- The tile: two rows of statistics over six zero rows; rows 0 and 1 read back. -/
theorem tile_row0 (r0 r1 : S1x128.Idx → EReal) (z : EReal) (h8 : Shape.Concatenates [S1x128, S1x128, S6x128] S8x128 0) (l : Fin 128) :
    concatenate S8x128 0 [⟨S1x128, r0⟩, ⟨S1x128, r1⟩, ⟨S6x128, broadcast S6x128 z⟩] h8 (ix2 (0 : Fin 8) l) = r0 (ix2 (0 : Fin 1) l) :=
  concatenate_apply_piece (t := S8x128) (0 : Fin 2) [⟨S1x128, r0⟩, ⟨S1x128, r1⟩, ⟨S6x128, broadcast S6x128 z⟩] h8 (ix2 (0 : Fin 8) l)
    0 (by simp) S1x128 r0 rfl (rfl : S1x128.rank = S8x128.rank) 0 rfl (ix2 (0 : Fin 1) l)
    (fun b' hb' => by
      match b', hb' with
      | ⟨0, _⟩, hb' => exact absurd rfl hb'
      | ⟨1, _⟩, _ => rfl) rfl

theorem tile_row1 (r0 r1 : S1x128.Idx → EReal) (z : EReal) (h8 : Shape.Concatenates [S1x128, S1x128, S6x128] S8x128 0) (l : Fin 128) :
    concatenate S8x128 0 [⟨S1x128, r0⟩, ⟨S1x128, r1⟩, ⟨S6x128, broadcast S6x128 z⟩] h8 (ix2 (1 : Fin 8) l) = r1 (ix2 (0 : Fin 1) l) :=
  concatenate_apply_piece (t := S8x128) (0 : Fin 2) [⟨S1x128, r0⟩, ⟨S1x128, r1⟩, ⟨S6x128, broadcast S6x128 z⟩] h8 (ix2 (1 : Fin 8) l)
    1 (by simp) S1x128 r1 rfl (rfl : S1x128.rank = S8x128.rank) 1 rfl (ix2 (0 : Fin 1) l)
    (fun b' hb' => by
      match b', hb' with
      | ⟨0, _⟩, hb' => exact absurd rfl hb'
      | ⟨1, _⟩, _ => rfl) rfl

/-- The block the body stores, at row r ∈ {0, 1} and lane b < 10: what it loaded there plus the statistic. -/
theorem pay2_row0 (cv sv : Fin 10 → EReal) (xo : Vec Ideal S1x8x128 .f32) (b : Fin 10) :
    k0_pay2 (F := Ideal) (sv 0) (sv 1) (sv 2) (sv 3) (sv 4) (sv 5) (sv 6) (sv 7) (sv 8) (sv 9)
      (k0_pay1 (cv 4) (cv 5) (cv 6) (cv 7) (cv 8) (cv 9) (k0_pay44 (cv 0)) (k0_pay45 (cv 1)) (k0_pay46 (cv 2)) (k0_pay47 (cv 3))) xo
      (ix3 (0 : Fin 1) (0 : Fin 8) (lane b)) = xo (ix3 (0 : Fin 1) (0 : Fin 8) (lane b)) + cv b := by
  unfold k0_pay2 k0_pay1 k0_pay44 k0_pay45 k0_pay46 k0_pay47
  show (_ : EReal) + _ = _
  congr 1
  · exact congrFun (shapeCast_self _ _) _
  · refine (shapeCast_ab_1ab_apply _ _ (0 : Fin 1) (0 : Fin 8) (lane b)).trans ?_
    refine (tile_row0 _ _ _ _ (lane b)).trans ?_
    exact row_apply cv _ _ _ _ b

theorem pay2_row1 (cv sv : Fin 10 → EReal) (xo : Vec Ideal S1x8x128 .f32) (b : Fin 10) :
    k0_pay2 (F := Ideal) (sv 0) (sv 1) (sv 2) (sv 3) (sv 4) (sv 5) (sv 6) (sv 7) (sv 8) (sv 9)
      (k0_pay1 (cv 4) (cv 5) (cv 6) (cv 7) (cv 8) (cv 9) (k0_pay44 (cv 0)) (k0_pay45 (cv 1)) (k0_pay46 (cv 2)) (k0_pay47 (cv 3))) xo
      (ix3 (0 : Fin 1) (1 : Fin 8) (lane b)) = xo (ix3 (0 : Fin 1) (1 : Fin 8) (lane b)) + sv b := by
  unfold k0_pay2 k0_pay1 k0_pay44 k0_pay45 k0_pay46 k0_pay47
  show (_ : EReal) + _ = _
  congr 1
  · exact congrFun (shapeCast_self _ _) _
  · refine (shapeCast_ab_1ab_apply _ _ (0 : Fin 1) (1 : Fin 8) (lane b)).trans ?_
    refine (tile_row1 _ _ _ _ (lane b)).trans ?_
    exact row_apply sv _ _ _ _ b

end Cert.KernelIdeal.KV

end
-- ==== Proof.KCases.lean ====
/-
  What one run of the kernel body leaves in the output block. In both control cases it is ONE function of the three
  loaded input blocks and of the block contents the final addition reads: at a first point of a core's row of the
  grid (the block is reset first) those contents are the zero block the reset stored, elsewhere what the point
  before left. Read at the ideal instance, entry (0, 0, b) gains the number of valid elements of the block in
  bin b, and entry (0, 1, b) their weighted cross entropies' sum, for b < 10.
-/
import proofs.«150911_j10273561772276_2_alg».proof.Proof.Gen.KernelIdeal.Frame
import proofs.«150911_j10273561772276_2_alg».proof.Proof.KPay
import proofs.«150911_j10273561772276_2_alg».proof.Proof.KElt
import proofs.«150911_j10273561772276_2_alg».proof.Proof.KStats
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KElem Cert.Spec

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The block the body's last store writes, from the values it derives from the loaded blocks and the contents xo it adds to. -/
def bodyOut' (V9 : FVec F S16384x128 .f32) (V32 : IVec S16384x128 32) (V38 : FVec F S16384x128 .f32) (Z : F .f32)
    (xo : Vec F S1x8x128 .f32) : Vec F S1x8x128 .f32 :=
  k0_pay2 (k0_pay14 V9 V32 V38 Z) (k0_pay17 V9 V32 V38 Z) (k0_pay20 V9 V32 V38 Z) (k0_pay24 (k0_pay11 V9 V38 Z) (k0_pay21 V32))
    (k0_pay27 V32 (k0_pay11 V9 V38 Z)) (k0_pay30 V32 (k0_pay11 V9 V38 Z)) (k0_pay34 (k0_pay33 V32 (k0_pay11 V9 V38 Z))) (k0_pay37 V32 (k0_pay11 V9 V38 Z)) (k0_pay40 V32 (k0_pay11 V9 V38 Z)) (k0_pay43 V32 (k0_pay11 V9 V38 Z))
    (k0_pay1 (k0_pay26 V32 (k0_pay10 V9 Z)) (k0_pay29 V32 (k0_pay10 V9 Z)) (k0_pay32 V32 (k0_pay10 V9 Z)) (k0_pay36 V32 (k0_pay10 V9 Z)) (k0_pay39 V32 (k0_pay10 V9 Z)) (k0_pay42 V32 (k0_pay10 V9 Z))
      (k0_pay44 (k0_pay13 V9 V32 Z)) (k0_pay45 (k0_pay16 V9 V32 Z)) (k0_pay46 (k0_pay19 V9 V32 Z)) (k0_pay47 (k0_pay23 (k0_pay10 V9 Z) (k0_pay21 V32))))
    xo

/-- The same from the loaded blocks. -/
def bodyOut (x0 : Vec F S16384x128 .f32) (x1 : Vec F S16384x128 .i32) (x2 : Vec F S16384x128 .f32) (xo : Vec F S1x8x128 .f32) :
    Vec F S1x8x128 .f32 :=
  bodyOut' (k0_pay6 x2) (k0_pay8 x0 x1) (k0_pay9 x0 x1) (FloatOps.ofBits .f32 0#32) xo

/-- Away from a first point the body leaves bodyOut of what the block held. -/
theorem out_B (c : Dev nD) (i : grid0.Coords) (arg2 : Memref sig .tc .vmem S16384x128 .f32) (harg2 : arg2.IsWhole) (arg3 : Memref sig .tc .vmem S16384x128 .i32) (harg3 : arg3.IsWhole) (arg4 : Memref sig .tc .vmem S16384x128 .f32) (harg4 : arg4.IsWhole) (arg5 : Memref sig .tc .vmem S1x8x128 .f32) (harg5 : arg5.IsWhole) (hc : ¬cond0_0 i)
    (x0 : Vec F S16384x128 .f32) (x1 : Vec F S16384x128 .i32) (x2 : Vec F S16384x128 .f32) (xo3 : Vec F S1x8x128 .f32) :
    out0_B_3 c i arg2 harg2 arg3 harg3 arg4 harg4 arg5 harg5 hc x0 x1 x2 xo3 = bodyOut x0 x1 x2 xo3 := by
  unfold out0_B_3
  rw [View.read_writes_eq_canon _ _ _ (cover0_B_3 c i arg2 harg2 arg3 harg3 arg4 harg4 arg5 harg5 hc x0 x1 x2 xo3)]
  unfold kernelRun0_B
  dsimp only
  sl_unfold_words
  rw [View.canon_unit_zero hz3]
  simp only [View.readAt_eq_ld, harg2.read_unread, harg3.read_unread, harg4.read_unread, harg5.read_unread,
    View.ld_unit_zero (S := S16384x128) hz2, View.ld_unit_zero (S := S1x8x128) hz3]
  rfl

/-- At a first point it leaves bodyOut of the zero block it has just stored. -/
theorem out_A (c : Dev nD) (i : grid0.Coords) (arg2 : Memref sig .tc .vmem S16384x128 .f32) (harg2 : arg2.IsWhole) (arg3 : Memref sig .tc .vmem S16384x128 .i32) (harg3 : arg3.IsWhole) (arg4 : Memref sig .tc .vmem S16384x128 .f32) (harg4 : arg4.IsWhole) (arg5 : Memref sig .tc .vmem S1x8x128 .f32) (harg5 : arg5.IsWhole) (hc : cond0_0 i)
    (x0 : Vec F S16384x128 .f32) (x1 : Vec F S16384x128 .i32) (x2 : Vec F S16384x128 .f32) :
    out0_A_3 c i arg2 harg2 arg3 harg3 arg4 harg4 arg5 harg5 hc x0 x1 x2 = bodyOut x0 x1 x2 (k0_pay3 (F := F)) := by
  unfold out0_A_3
  rw [View.read_writes_eq_canon _ _ _ (cover0_A_3 c i arg2 harg2 arg3 harg3 arg4 harg4 arg5 harg5 hc x0 x1 x2)]
  unfold kernelRun0_A
  dsimp only
  sl_unfold_words
  rw [View.canon_cons_unit_zero (S := S1x8x128) hz3]
  simp only [View.readCov_unit_zero (S := S1x8x128) _ hz3, View.readAt_eq_ld, harg2.read_unread, harg3.read_unread, harg4.read_unread,
    View.ld_unit_zero (S := S16384x128) hz2, View.ld_unit_zero (S := S1x8x128) hz3]
  rfl

/-! ## At the ideal instance -/

/-- The number of valid elements of a block in bin b, and the sum of their weighted cross entropies. -/
def blockCnt (x0 : Vec Ideal S16384x128 .f32) (x1 : Vec Ideal S16384x128 .i32) (x2 : Vec Ideal S16384x128 .f32) (b : Fin 10) : EReal :=
  bsum (k0_pay8 x0 x1) (k0_pay10 (k0_pay6 x2) (FloatOps.ofBits .f32 0#32)) (bv b)
def blockSum (x0 : Vec Ideal S16384x128 .f32) (x1 : Vec Ideal S16384x128 .i32) (x2 : Vec Ideal S16384x128 .f32) (b : Fin 10) : EReal :=
  bsum (k0_pay8 x0 x1) (k0_pay11 (k0_pay6 x2) (k0_pay9 x0 x1) (FloatOps.ofBits .f32 0#32)) (bv b)

theorem bodyOut_row0 (x0 : Vec Ideal S16384x128 .f32) (x1 : Vec Ideal S16384x128 .i32) (x2 : Vec Ideal S16384x128 .f32)
    (xo : Vec Ideal S1x8x128 .f32) (b : Fin 10) :
    bodyOut x0 x1 x2 xo (ix3 (0 : Fin 1) (0 : Fin 8) (lane b)) = xo (ix3 (0 : Fin 1) (0 : Fin 8) (lane b)) + blockCnt x0 x1 x2 b := by
  unfold bodyOut bodyOut'
  rw [cnt0, cnt1, cnt2, cnt3, cnt4, cnt5, cnt6, cnt7, cnt8, cnt9, sm0, sm1, sm2, sm3, sm4, sm5, sm6, sm7, sm8, sm9]
  exact pay2_row0 (fun b => blockCnt x0 x1 x2 b) (fun b => blockSum x0 x1 x2 b) xo b

theorem bodyOut_row1 (x0 : Vec Ideal S16384x128 .f32) (x1 : Vec Ideal S16384x128 .i32) (x2 : Vec Ideal S16384x128 .f32)
    (xo : Vec Ideal S1x8x128 .f32) (b : Fin 10) :
    bodyOut x0 x1 x2 xo (ix3 (0 : Fin 1) (1 : Fin 8) (lane b)) = xo (ix3 (0 : Fin 1) (1 : Fin 8) (lane b)) + blockSum x0 x1 x2 b := by
  unfold bodyOut bodyOut'
  rw [cnt0, cnt1, cnt2, cnt3, cnt4, cnt5, cnt6, cnt7, cnt8, cnt9, sm0, sm1, sm2, sm3, sm4, sm5, sm6, sm7, sm8, sm9]
  exact pay2_row1 (fun b => blockCnt x0 x1 x2 b) (fun b => blockSum x0 x1 x2 b) xo b

/-- The reset block is zero everywhere. -/
theorem pay3_apply (j : S1x8x128.Idx) : k0_pay3 (F := Ideal) j = 0 := by
  unfold k0_pay3
  exact Ideal.ofBits_zero_f32

end Cert.KernelIdeal.KV

end
-- ==== Proof.KAccum.lean ====
/-
  The output block's running contents over a core's row of the grid. The block is reset at the first point of each
  row of ten points and every point adds its block's statistics; so after point n, entry (0, 0, b) of the staging
  buffer is the sum of the counts of the points of n's row up to n, and entry (0, 1, b) the sum of their weighted
  sums — by induction on the point, the two control cases read by Proof/KCases.lean.
-/
import proofs.«150911_j10273561772276_2_alg».proof.Proof.KCases

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KElem Cert.Spec

variable (m : (ℓ : Loc nD τ sig) → Buf (Elt Ideal) ℓ)

/-- The statistics of point n's blocks (zero past the grid). -/
def ptCnt (c : Dev nD) (n : ℕ) (b : Fin 10) : EReal :=
  if h : n < cfg0.N then blockCnt (iblk m c 0 ⟨n, h⟩) (iblk m c 1 ⟨n, h⟩) (iblk m c 2 ⟨n, h⟩) b else 0
def ptSum (c : Dev nD) (n : ℕ) (b : Fin 10) : EReal :=
  if h : n < cfg0.N then blockSum (iblk m c 0 ⟨n, h⟩) (iblk m c 1 ⟨n, h⟩) (iblk m c 2 ⟨n, h⟩) b else 0

theorem outsAt_row0 (c : Dev nD) : ∀ (n : ℕ) (h : n < cfg0.N) (b : Fin 10),
    outsAt0 m c n h (ix3 (0 : Fin 1) (0 : Fin 8) (lane b)) = ∑ k ∈ Finset.range (n % 10 + 1), ptCnt m c (10 * (n / 10) + k) b := by
  intro n
  induction n with
  | zero =>
    intro h b
    refine (congrFun ((outsAt0_A m c ⟨0, h⟩ rfl).trans
      (out_A c _ _ _ _ _ _ _ _ _ _ (iblk m c 0 ⟨0, h⟩) (iblk m c 1 ⟨0, h⟩) (iblk m c 2 ⟨0, h⟩))) _).trans ?_
    refine (bodyOut_row0 (iblk m c 0 ⟨0, h⟩) (iblk m c 1 ⟨0, h⟩) (iblk m c 2 ⟨0, h⟩) (k0_pay3 (F := Ideal)) b).trans ?_
    rw [pay3_apply, zero_add]
    show _ = ∑ k ∈ Finset.range 1, _
    rw [Finset.sum_range_one]
    show _ = ptCnt m c 0 b
    unfold ptCnt
    rw [dif_pos h]
  | succ n ih =>
    intro h b
    have hN : cfg0.N = 20 := N_0
    by_cases h0 : (n + 1) % 10 = 0
    · refine (congrFun ((outsAt0_A m c ⟨n + 1, h⟩ h0).trans
        (out_A c _ _ _ _ _ _ _ _ _ _ (iblk m c 0 ⟨n + 1, h⟩) (iblk m c 1 ⟨n + 1, h⟩) (iblk m c 2 ⟨n + 1, h⟩))) _).trans ?_
      refine (bodyOut_row0 (iblk m c 0 ⟨n + 1, h⟩) (iblk m c 1 ⟨n + 1, h⟩) (iblk m c 2 ⟨n + 1, h⟩) (k0_pay3 (F := Ideal)) b).trans ?_
      rw [pay3_apply, zero_add]
      have e1 : (n + 1) % 10 + 1 = 1 := by omega
      have e2 : 10 * ((n + 1) / 10) + 0 = n + 1 := by omega
      rw [e1, Finset.sum_range_one, e2]
      unfold ptCnt
      rw [dif_pos h]
    · refine (congrFun ((outsAt0_B m c ⟨n + 1, h⟩ h0).trans
        (out_B c _ _ _ _ _ _ _ _ _ _ (iblk m c 0 ⟨n + 1, h⟩) (iblk m c 1 ⟨n + 1, h⟩) (iblk m c 2 ⟨n + 1, h⟩)
          (outsAt0 m c n (Nat.lt_of_succ_lt h)))) _).trans ?_
      refine (bodyOut_row0 (iblk m c 0 ⟨n + 1, h⟩) (iblk m c 1 ⟨n + 1, h⟩) (iblk m c 2 ⟨n + 1, h⟩)
        (outsAt0 m c n (Nat.lt_of_succ_lt h)) b).trans ?_
      rw [ih (Nat.lt_of_succ_lt h) b]
      have e1 : (n + 1) % 10 = n % 10 + 1 := by omega
      have e2 : (n + 1) / 10 = n / 10 := by omega
      rw [e1, e2, Finset.sum_range_succ (fun k => ptCnt m c (10 * (n / 10) + k) b) (n % 10 + 1)]
      have e3 : 10 * (n / 10) + (n % 10 + 1) = n + 1 := by omega
      have e4 : ptCnt m c (n + 1) b
          = blockCnt (iblk m c 0 ⟨n + 1, h⟩) (iblk m c 1 ⟨n + 1, h⟩) (iblk m c 2 ⟨n + 1, h⟩) b := by
        unfold ptCnt
        rw [dif_pos h]
      rw [e3, e4]

theorem outsAt_row1 (c : Dev nD) : ∀ (n : ℕ) (h : n < cfg0.N) (b : Fin 10),
    outsAt0 m c n h (ix3 (0 : Fin 1) (1 : Fin 8) (lane b)) = ∑ k ∈ Finset.range (n % 10 + 1), ptSum m c (10 * (n / 10) + k) b := by
  intro n
  induction n with
  | zero =>
    intro h b
    refine (congrFun ((outsAt0_A m c ⟨0, h⟩ rfl).trans
      (out_A c _ _ _ _ _ _ _ _ _ _ (iblk m c 0 ⟨0, h⟩) (iblk m c 1 ⟨0, h⟩) (iblk m c 2 ⟨0, h⟩))) _).trans ?_
    refine (bodyOut_row1 (iblk m c 0 ⟨0, h⟩) (iblk m c 1 ⟨0, h⟩) (iblk m c 2 ⟨0, h⟩) (k0_pay3 (F := Ideal)) b).trans ?_
    rw [pay3_apply, zero_add]
    show _ = ∑ k ∈ Finset.range 1, _
    rw [Finset.sum_range_one]
    show _ = ptSum m c 0 b
    unfold ptSum
    rw [dif_pos h]
  | succ n ih =>
    intro h b
    have hN : cfg0.N = 20 := N_0
    by_cases h0 : (n + 1) % 10 = 0
    · refine (congrFun ((outsAt0_A m c ⟨n + 1, h⟩ h0).trans
        (out_A c _ _ _ _ _ _ _ _ _ _ (iblk m c 0 ⟨n + 1, h⟩) (iblk m c 1 ⟨n + 1, h⟩) (iblk m c 2 ⟨n + 1, h⟩))) _).trans ?_
      refine (bodyOut_row1 (iblk m c 0 ⟨n + 1, h⟩) (iblk m c 1 ⟨n + 1, h⟩) (iblk m c 2 ⟨n + 1, h⟩) (k0_pay3 (F := Ideal)) b).trans ?_
      rw [pay3_apply, zero_add]
      have e1 : (n + 1) % 10 + 1 = 1 := by omega
      have e2 : 10 * ((n + 1) / 10) + 0 = n + 1 := by omega
      rw [e1, Finset.sum_range_one, e2]
      unfold ptSum
      rw [dif_pos h]
    · refine (congrFun ((outsAt0_B m c ⟨n + 1, h⟩ h0).trans
        (out_B c _ _ _ _ _ _ _ _ _ _ (iblk m c 0 ⟨n + 1, h⟩) (iblk m c 1 ⟨n + 1, h⟩) (iblk m c 2 ⟨n + 1, h⟩)
          (outsAt0 m c n (Nat.lt_of_succ_lt h)))) _).trans ?_
      refine (bodyOut_row1 (iblk m c 0 ⟨n + 1, h⟩) (iblk m c 1 ⟨n + 1, h⟩) (iblk m c 2 ⟨n + 1, h⟩)
        (outsAt0 m c n (Nat.lt_of_succ_lt h)) b).trans ?_
      rw [ih (Nat.lt_of_succ_lt h) b]
      have e1 : (n + 1) % 10 = n % 10 + 1 := by omega
      have e2 : (n + 1) / 10 = n / 10 := by omega
      rw [e1, e2, Finset.sum_range_succ (fun k => ptSum m c (10 * (n / 10) + k) b) (n % 10 + 1)]
      have e3 : 10 * (n / 10) + (n % 10 + 1) = n + 1 := by omega
      have e4 : ptSum m c (n + 1) b
          = blockSum (iblk m c 0 ⟨n + 1, h⟩) (iblk m c 1 ⟨n + 1, h⟩) (iblk m c 2 ⟨n + 1, h⟩) b := by
        unfold ptSum
        rw [dif_pos h]
      rw [e3, e4]

end Cert.KernelIdeal.KV

end
-- ==== Proof.KIdx.lean ====
/-
  Where a block of an input window sits in the lane-dense [327680, 128] view of an argument array: block t (of the
  twenty, 16384 rows each) holds rows 16384·t … 16384·t + 16383, all 128 lanes.
-/
import Idealize.ShloMosaic.Lib.ValueIdx

noncomputable section

namespace Cert.KIdx

open Idealize.ShloMosaic Idealize.ShloMosaic.ValueIdx

/-- The lane-dense view of an argument array, and one block of it. -/
abbrev SA : Shape := ⟨2, ![327680, 128]⟩
abbrev SB : Shape := ⟨2, ![16384, 128]⟩

/-- Entry j of block t, as an index of the lane-dense view. -/
def blockIdx (t : Fin 20) (j : SB.Idx) : SA.Idx :=
  ix2 (⟨t.val * 16384 + (j 0).val, by have := idx2_lt0 j; have := t.isLt; omega⟩ : Fin 327680) (⟨(j 1).val, idx2_lt1 j⟩ : Fin 128)

end Cert.KIdx

end
-- ==== Proof.KBlocks.lean ====
/-
  The input blocks as the region finds them. Each argument array is first viewed lane-dense ([524288, 80] reshaped
  to [327680, 128]: the same elements in row-major order), and window w's block at grid point t is rows
  16384·t … 16384·t + 16383 of that view. So the statistics of point t's blocks are sums, over the entries j of a
  block, of a summand of the ELEMENT of the argument arrays that entry j of block t is.
-/
import proofs.«150911_j10273561772276_2_alg».proof.Proof.KAccum
import proofs.«150911_j10273561772276_2_alg».proof.Proof.KIdx
import Idealize.ShloMosaic.Lib.StableHlo.Run

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KElem Cert.Spec Cert.KIdx

variable (m : (ℓ : Loc nD τ sig) → Buf (Elt Ideal) ℓ)

/-- The lane-dense views are the reshapes of the arguments. -/
theorem V_main_v0 (c : Dev nD) (h : S524288x80.ShapeCasts S327680x128) :
    (V m c main_v0 : S327680x128.Idx → EReal) = shapeCast S327680x128 (m ((c : Thread nD τ).loc main_arg0)) h := by
  show StableHlo.after hostOps0 (fun b => m (c, b)) (Proc.devRef .tc main_v0) = _
  after_results
  rfl
theorem V_main_v1 (c : Dev nD) (h : S524288x80.ShapeCasts S327680x128) :
    (V m c main_v1 : S327680x128.Idx → BitVec 32) = shapeCast S327680x128 (m ((c : Thread nD τ).loc main_arg1)) h := by
  show StableHlo.after hostOps0 (fun b => m (c, b)) (Proc.devRef .tc main_v1) = _
  after_results
  rfl
theorem V_main_v2 (c : Dev nD) (h : S524288x80.ShapeCasts S327680x128) :
    (V m c main_v2 : S327680x128.Idx → EReal) = shapeCast S327680x128 (m ((c : Thread nD τ).loc main_arg2)) h := by
  show StableHlo.after hostOps0 (fun b => m (c, b)) (Proc.devRef .tc main_v2) = _
  after_results
  rfl

/-- The three input windows' block index at point t is (t, 0): decided over the grid. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Point t as one of the twenty blocks. -/
abbrev blk20 (t : Fin cfg0.N) : Fin 20 := ⟨t.val, lt_of_lt_of_eq t.isLt N_0⟩

theorem iblk0_apply (c : Dev nD) (t : Fin cfg0.N) (j : S16384x128.Idx) :
    (iblk m c 0 t : S16384x128.Idx → EReal) j = (V m c main_v0 : S327680x128.Idx → EReal) (blockIdx (blk20 t) j) := by
  obtain ⟨e0, e1, -⟩ := idx_in t
  unfold iblk
  rw [View.read_apply]
  show V m c main_v0 _ = V m c main_v0 _
  congr 1
  funext a
  apply Fin.ext
  match a with
  | ⟨0, _⟩ => show win0_0.index t 0 * 16384 + 1 * (j 0).val = t.val * 16384 + (j 0).val; rw [e0]; omega
  | ⟨1, _⟩ => show win0_0.index t 1 * 128 + 1 * (j 1).val = (j 1).val; rw [e1]; omega

theorem iblk1_apply (c : Dev nD) (t : Fin cfg0.N) (j : S16384x128.Idx) :
    (iblk m c 1 t : S16384x128.Idx → BitVec 32) j = (V m c main_v1 : S327680x128.Idx → BitVec 32) (blockIdx (blk20 t) j) := by
  obtain ⟨-, -, e0, e1, -⟩ := idx_in t
  unfold iblk
  rw [View.read_apply]
  show V m c main_v1 _ = V m c main_v1 _
  congr 1
  funext a
  apply Fin.ext
  match a with
  | ⟨0, _⟩ => show win0_1.index t 0 * 16384 + 1 * (j 0).val = t.val * 16384 + (j 0).val; rw [e0]; omega
  | ⟨1, _⟩ => show win0_1.index t 1 * 128 + 1 * (j 1).val = (j 1).val; rw [e1]; omega

theorem iblk2_apply (c : Dev nD) (t : Fin cfg0.N) (j : S16384x128.Idx) :
    (iblk m c 2 t : S16384x128.Idx → EReal) j = (V m c main_v2 : S327680x128.Idx → EReal) (blockIdx (blk20 t) j) := by
  obtain ⟨-, -, -, -, e0, e1⟩ := idx_in t
  unfold iblk
  rw [View.read_apply]
  show V m c main_v2 _ = V m c main_v2 _
  congr 1
  funext a
  apply Fin.ext
  match a with
  | ⟨0, _⟩ => show win0_2.index t 0 * 16384 + 1 * (j 0).val = t.val * 16384 + (j 0).val; rw [e0]; omega
  | ⟨1, _⟩ => show win0_2.index t 1 * 128 + 1 * (j 1).val = (j 1).val; rw [e1]; omega

/-! ## The statistics of a point as sums over elements of the arguments -/

/-- An element's contribution to the count of bin b, and to its weighted sum. -/
def fCnt (x : SE.Idx → EReal) (tg : SE.Idx → BitVec 32) (w : SE.Idx → EReal) (b : Fin 10) (e : SE.Idx) : EReal :=
  ind (binK x tg e = bv b) * ind (0 < w e)
def fSum (x : SE.Idx → EReal) (tg : SE.Idx → BitVec 32) (w : SE.Idx → EReal) (b : Fin 10) (e : SE.Idx) : EReal :=
  ind (binK x tg e = bv b) * ((bceK (x e) (tg e) * w e) * ind (0 < w e))

/-- The row-major correspondence between the lane-dense view and the arguments' own shape. -/
abbrev rho (h : S524288x80.ShapeCasts S327680x128) : SA.Idx ≃ SE.Idx := Shape.reshapeEquiv h

theorem ptCnt_eq (c : Dev nD) (h : S524288x80.ShapeCasts S327680x128) (n : ℕ) (hn : n < 20) (b : Fin 10) :
    ptCnt m c n b = ∑ j : KIdx.SB.Idx, fCnt (m ((c : Thread nD τ).loc main_arg0)) (m ((c : Thread nD τ).loc main_arg1))
      (m ((c : Thread nD τ).loc main_arg2)) b (rho h (blockIdx ⟨n, hn⟩ j)) := by
  have hn' : n < cfg0.N := lt_of_lt_of_eq hn N_0.symm
  unfold ptCnt
  rw [dif_pos hn']
  unfold blockCnt bsum
  refine Finset.sum_congr rfl fun j _ => ?_
  rw [pay8_apply, pay10_apply, pay6_eq, iblk0_apply, iblk1_apply, iblk2_apply, V_main_v0 m c h, V_main_v1 m c h, V_main_v2 m c h]
  rfl

theorem ptSum_eq (c : Dev nD) (h : S524288x80.ShapeCasts S327680x128) (n : ℕ) (hn : n < 20) (b : Fin 10) :
    ptSum m c n b = ∑ j : KIdx.SB.Idx, fSum (m ((c : Thread nD τ).loc main_arg0)) (m ((c : Thread nD τ).loc main_arg1))
      (m ((c : Thread nD τ).loc main_arg2)) b (rho h (blockIdx ⟨n, hn⟩ j)) := by
  have hn' : n < cfg0.N := lt_of_lt_of_eq hn N_0.symm
  unfold ptSum
  rw [dif_pos hn']
  unfold blockSum bsum
  refine Finset.sum_congr rfl fun j _ => ?_
  rw [pay8_apply, pay11_apply, pay9_apply, pay10_apply, pay6_eq, iblk0_apply, iblk1_apply, iblk2_apply, V_main_v0 m c h, V_main_v1 m c h,
    V_main_v2 m c h]
  rfl

end Cert.KernelIdeal.KV

end
-- ==== Proof.KFinal.lean ====
/-
  The output array after the region. Core row c' of the grid writes its block back once, after its last point
  10·c' + 9, into block c' of the [2, 8, 128] array; so entry (c', 0, b) of the array ends at the sum of the counts
  of the ten points of row c', and entry (c', 1, b) at the sum of their weighted sums (b < 10).
-/
import proofs.«150911_j10273561772276_2_alg».proof.Proof.KAccum

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.KElem Cert.Spec

variable (m : (ℓ : Loc nD τ sig) → Buf (Elt Ideal) ℓ)

/-- The staging buffer's contents after point n (zero past the grid). -/
def outsN (c : Dev nD) (n : ℕ) : Vec Ideal S1x8x128 .f32 :=
  if h : n < cfg0.N then outsAt0 m c n h else fun _ => 0

/-- The array the write-backs leave: block c' is what the staging buffer held after point 10·c' + 9. -/
def outArr (c : Dev nD) : S2x8x128.Idx → EReal := fun i =>
  outsN m c (10 * (i 0).val + 9) (ix3 (0 : Fin 1) (⟨(i 1).val, (i 1).isLt⟩ : Fin 8) (⟨(i 2).val, (i 2).isLt⟩ : Fin 128))

/-- outArr at an entry of block (n − 9) / 10, from the staging buffer after point n. -/
theorem outArr_apply (c : Dev nD) (i : S2x8x128.Idx) (n : ℕ) (hn : 10 * (i 0).val + 9 = n) (h : n < cfg0.N)
    (y : S1x8x128.Idx) (hy1 : (y 1).val = (i 1).val) (hy2 : (y 2).val = (i 2).val) :
    outArr m c i = outsAt0 m c n h y := by
  subst hn
  unfold outArr outsN
  rw [dif_pos h]
  congr 1
  funext a
  apply Fin.ext
  match a with
  | ⟨0, _⟩ => show 0 = (y 0).val; have : (y 0).val < 1 := (y 0).isLt; omega
  | ⟨1, _⟩ => exact hy1.symm
  | ⟨2, _⟩ => exact hy2.symm

/-- The output window's block index at point t is (t / 10, 0, 0): decided over the grid. -/
theorem idx_out : ∀ t : Fin cfg0.N, win0_3.index t (0 : Fin 3) = t.val / 10 ∧ win0_3.index t (1 : Fin 3) = 0
    ∧ win0_3.index t (2 : Fin 3) = 0 :=
  (by decide +kernel : ∀ t : Fin grid0.N, _)

/-- What a flushing point writes back is its block of outArr. -/
theorem flushed3_eq (c : Dev nD) (t : Fin cfg0.N) (hf : (cfg0.win 3).flush t = true) :
    (dats m 0 c).flushed 3 t = ((cfg0.win 3).blk t).view.read (Elt Ideal) (outArr m c) := by
  show (cfg0.win 3).cut (grid0.coords t) ((dats m 0 c).after 3 t) = _
  rw [after0_3]
  have h9 : t.val % 10 = 9 := (flush0_3 t).mp hf
  obtain ⟨e0, e1, e2⟩ := idx_out t
  funext y
  rw [View.read_apply]
  show outsAt0 m c t.val t.isLt y = outArr m c (((cfg0.win 3).blk t).view.emb y)
  have y0 : (y 0).val < 1 := (y 0).isLt
  have c0 : ((((cfg0.win 3).blk t).view.emb y) 0).val = t.val / 10 := by
    show win0_3.index t 0 * 1 + 1 * (y 0).val = _
    rw [e0]; omega
  have c1 : ((((cfg0.win 3).blk t).view.emb y) 1).val = (y 1).val := by
    show win0_3.index t 1 * 8 + 1 * (y 1).val = _
    rw [e1]; omega
  have c2 : ((((cfg0.win 3).blk t).view.emb y) 2).val = (y 2).val := by
    show win0_3.index t 2 * 128 + 1 * (y 2).val = _
    rw [e2]; omega
  have hn : 10 * ((((cfg0.win 3).blk t).view.emb y) 0).val + 9 = t.val := by rw [c0]; omega
  exact (outArr_apply m c _ t.val hn t.isLt y c1.symm c2.symm).symm

/-- Membership in the output window's block at point t, axis by axis. -/
theorem mem_blk3 (t : Fin cfg0.N) (i : S2x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v3).slice (win0_3.rect t)).set ↔ _
  rw [View.set_slice_whole, Rect.mem_set_unit]
  exact Iff.rfl

/-- The array after the run, at any entry: outArr. -/
theorem final3_apply (c : Dev nD) (c' : Fin 2) (r : Fin 8) (l : Fin 128) :
    ((dats m 0 c).arrAt 3 cfg0.N : S2x8x128.Idx → EReal) (ix3 c' r l) = outArr m c (ix3 c' r l) := by
  have hN : cfg0.N = 20 := N_0
  have hlt : 10 * c'.val + 9 < cfg0.N := by rw [hN]; omega
  have hfl : (cfg0.win 3).flush ⟨10 * c'.val + 9, hlt⟩ = true := (flush0_3 _).mpr (by show (10 * c'.val + 9) % 10 = 9; omega)
  refine (dats m 0 c).arrAt_apply_of_mem 3 (outArr m c) (flushed3_eq m c) cfg0.N ⟨10 * c'.val + 9, hlt⟩ (ix3 c' r l) hlt hfl ?_
  rw [mem_blk3]
  obtain ⟨e0, e1, e2⟩ := idx_out ⟨10 * c'.val + 9, hlt⟩
  intro a
  match a with
  | ⟨0, _⟩ =>
    show win0_3.index ⟨10 * c'.val + 9, hlt⟩ 0 * 1 ≤ c'.val ∧ c'.val < win0_3.index ⟨10 * c'.val + 9, hlt⟩ 0 * 1 + 1
    rw [e0]; show (10 * c'.val + 9) / 10 * 1 ≤ c'.val ∧ c'.val < (10 * c'.val + 9) / 10 * 1 + 1; omega
  | ⟨1, _⟩ =>
    show win0_3.index ⟨10 * c'.val + 9, hlt⟩ 1 * 8 ≤ r.val ∧ r.val < win0_3.index ⟨10 * c'.val + 9, hlt⟩ 1 * 8 + 8
    rw [e1]; omega
  | ⟨2, _⟩ =>
    show win0_3.index ⟨10 * c'.val + 9, hlt⟩ 2 * 128 ≤ l.val ∧ l.val < win0_3.index ⟨10 * c'.val + 9, hlt⟩ 2 * 128 + 128
    rw [e2]; omega

/-- Rows 0 and 1 of block c' at lane b < 10: the row's ten points' statistics summed. -/
theorem outArr_row0 (c : Dev nD) (c' : Fin 2) (b : Fin 10) :
    outArr m c (ix3 c' (0 : Fin 8) (lane b)) = ∑ k ∈ Finset.range 10, ptCnt m c (10 * c'.val + k) b := by
  have hN : cfg0.N = 20 := N_0
  have hlt : 10 * c'.val + 9 < cfg0.N := by rw [hN]; omega
  show outsN m c (10 * c'.val + 9) (ix3 (0 : Fin 1) (0 : Fin 8) (lane b)) = _
  unfold outsN
  rw [dif_pos hlt, outsAt_row0 m c (10 * c'.val + 9) hlt b]
  have e1 : (10 * c'.val + 9) % 10 + 1 = 10 := by omega
  have e2 : 10 * ((10 * c'.val + 9) / 10) = 10 * c'.val := by omega
  rw [e1, e2]

theorem outArr_row1 (c : Dev nD) (c' : Fin 2) (b : Fin 10) :
    outArr m c (ix3 c' (1 : Fin 8) (lane b)) = ∑ k ∈ Finset.range 10, ptSum m c (10 * c'.val + k) b := by
  have hN : cfg0.N = 20 := N_0
  have hlt : 10 * c'.val + 9 < cfg0.N := by rw [hN]; omega
  show outsN m c (10 * c'.val + 9) (ix3 (0 : Fin 1) (1 : Fin 8) (lane b)) = _
  unfold outsN
  rw [dif_pos hlt, outsAt_row1 m c (10 * c'.val + 9) hlt b]
  have e1 : (10 * c'.val + 9) % 10 + 1 = 10 := by omega
  have e2 : 10 * ((10 * c'.val + 9) / 10) = 10 * c'.val := by omega
  rw [e1, e2]

end Cert.KernelIdeal.KV

end
-- ==== Proof.KGrid.lean ====
/-
  The twenty blocks tile the lane-dense view: summing block by block (two groups of ten blocks, each block over its
  16384 rows and 128 lanes) is summing over all 327680 rows and 128 lanes, and, through a bijection of the lane-dense
  view with the elements, over all elements.

  Block t holds rows 16384·t … 16384·t + 16383, so (t, a) ↦ 16384·t + a is a bijection of the pairs (block, row in
  block) with the rows, its inverse the division with remainder by 16384; the lane is kept.
-/
import Mathlib
import proofs.«150911_j10273561772276_2_alg».proof.Proof.KIdx
import proofs.«150911_j10273561772276_2_alg».proof.Proof.Spec

noncomputable section

namespace Cert.KIdx

open Idealize.ShloMosaic Idealize.ShloMosaic.ValueIdx
open scoped BigOperators

/-- A function of the block number, extended by zero to all natural numbers. -/
def ext0 {M : Type*} [Zero M] (g : Fin 20 → M) (n : ℕ) : M := if h : n < 20 then g ⟨n, h⟩ else 0

/-- The two groups of ten blocks are the twenty blocks: t = 10·c' + k. -/
theorem sum_blocks {M : Type*} [AddCommMonoid M] (g : Fin 20 → M) :
    (∑ c' : Fin 2, ∑ k ∈ Finset.range 10, (if h : 10 * c'.val + k < 20 then g ⟨10 * c'.val + k, h⟩ else 0))
      = ∑ t : Fin 20, g t := by
  show ∑ c' : Fin 2, ∑ k ∈ Finset.range 10, ext0 g (10 * c'.val + k) = ∑ t : Fin 20, g t
  have hR : ∑ t : Fin 20, g t = ∑ n ∈ Finset.range (10 + 10), ext0 g n := by
    show _ = ∑ n ∈ Finset.range 20, ext0 g n
    rw [← Fin.sum_univ_eq_sum_range (ext0 g) 20]
    apply Finset.sum_congr rfl
    intro t _
    unfold ext0
    rw [dif_pos t.isLt]
  have e0 : ∀ k : ℕ, 10 * ((0 : Fin 2) : ℕ) + k = k := by
    intro k
    rw [Fin.val_zero, Nat.mul_zero, Nat.zero_add]
  have e1 : ∀ k : ℕ, 10 * ((1 : Fin 2) : ℕ) + k = 10 + k := by
    intro k
    rw [Fin.val_one, Nat.mul_one]
  rw [hR, Fin.sum_univ_two, Finset.sum_range_add, Finset.sum_congr rfl (fun k _ => congrArg (ext0 g) (e0 k)),
    Finset.sum_congr rfl (fun k _ => congrArg (ext0 g) (e1 k))]

/-- A pair (block, row in the block) is a row of the lane-dense view, and conversely by division with remainder. -/
def rowEquiv : Fin 20 × Fin 16384 ≃ Fin 327680 where
  toFun p := ⟨p.1.val * 16384 + p.2.val, by have := p.1.isLt; have := p.2.isLt; omega⟩
  invFun r := (⟨r.val / 16384, by have := r.isLt; omega⟩, ⟨r.val % 16384, Nat.mod_lt _ (by norm_num)⟩)
  left_inv p := by
    obtain ⟨t, a⟩ := p
    have ht := t.isLt
    have ha := a.isLt
    apply Prod.ext
    · apply Fin.ext
      show (t.val * 16384 + a.val) / 16384 = t.val
      omega
    · apply Fin.ext
      show (t.val * 16384 + a.val) % 16384 = a.val
      omega
  right_inv r := by
    apply Fin.ext
    show r.val / 16384 * 16384 + r.val % 16384 = r.val
    omega

/-- Entry (a, b) of block t is row 16384·t + a, lane b. -/
theorem blockIdx_ix2 (t : Fin 20) (a : Fin 16384) (b : Fin 128) :
    blockIdx t (ix2 a b) = ix2 (rowEquiv (t, a)) b := rfl

/-- Summing block by block is summing over the lane-dense view. -/
theorem sum_tiles {M : Type*} [AddCommMonoid M] (F : SA.Idx → M) :
    ∑ t : Fin 20, ∑ j : SB.Idx, F (blockIdx t j) = ∑ i : SA.Idx, F i := by
  have h1 : ∀ t : Fin 20, ∑ j : SB.Idx, F (blockIdx t j)
      = ∑ a : Fin 16384, ∑ b : Fin 128, F (ix2 (rowEquiv (t, a)) b) := by
    intro t
    rw [sum_idx2 (fun j : SB.Idx => F (blockIdx t j))]
    rfl
  rw [Finset.sum_congr rfl (fun t _ => h1 t), sum_idx2 F,
    ← Equiv.sum_comp rowEquiv (fun r : Fin 327680 => ∑ b : Fin 128, F (ix2 r b)), Fintype.sum_prod_type]

/-- The block-by-block sum, through a bijection of the lane-dense view with the elements, is the sum over the
    elements. -/
theorem sum_grid (ρ : Cert.KIdx.SA.Idx ≃ Cert.Spec.SE.Idx) (f : Cert.Spec.SE.Idx → EReal) :
    (∑ c' : Fin 2, ∑ k ∈ Finset.range 10,
        (if h : 10 * c'.val + k < 20 then ∑ j : Cert.KIdx.SB.Idx, f (ρ (Cert.KIdx.blockIdx ⟨10 * c'.val + k, h⟩ j)) else 0))
      = ∑ e : Cert.Spec.SE.Idx, f e := by
  rw [← Equiv.sum_comp ρ f, ← sum_tiles (fun i : SA.Idx => f (ρ i))]
  exact sum_blocks (fun t : Fin 20 => ∑ j : SB.Idx, f (ρ (blockIdx t j)))

end Cert.KIdx

end
-- ==== Proof.KTailDef.lean ====
/-
  The host lines after the call, as one function of the [2, 8, 128] array of statistics the call leaves: the two
  cores' blocks are added, row 0 (lanes 0 … 9) gives the ten counts and row 1 the ten weighted sums; the total is
  the counts' sum (at least 1), the number of non-empty bins the number of positive counts (at least 1), a bin's
  weight  (total / max count 1  if the count is positive, else 0) / non-empty bins, and the result
  (∑ weight · weighted sum) / total · 1.
-/
import proofs.«150911_j10273561772276_2_alg».proof.KernelIdeal
import proofs.«150911_j10273561772276_2_alg».proof.Proof.Spec
import Idealize.ShloMosaic.PureOps.Ideal

noncomputable section

namespace Cert.KernelIdeal.Tail

open Idealize.ShloMosaic Cert.KernelIdeal

variable [Facts₀]
open Facts₀

/-- Lane k < 10 as a lane of 128. -/
abbrev lane10 (k : Fin 10) : Fin 128 := ⟨k.val, by omega⟩

/-- The two cores' blocks added. -/
def added (A : S2x8x128.Idx → EReal) : S8x128.Idx → EReal :=
  Host.reduceAdd (F := Ideal) (φ := .f32) A (constant (F := Ideal) S_ .f32 0x00000000#32) reducesTo_S2x8x128_S8x128_d0 h_S_

/-- The ten counts and the ten weighted sums. -/
def cntv (A : S2x8x128.Idx → EReal) : S10.Idx → EReal :=
  shapeCast S10 (extractStridedSlice S1x10 ![0, 0] (added A) slices_S8x128_S1x10_0_0) shapeCasts_S1x10_S10
def smv (A : S2x8x128.Idx → EReal) : S10.Idx → EReal :=
  shapeCast S10 (extractStridedSlice S1x10 ![1, 0] (added A) slices_S8x128_S1x10_1_0) shapeCasts_S1x10_S10

/-- The total, at least 1. -/
def totv (A : S2x8x128.Idx → EReal) : S_.Idx → EReal :=
  maximumf (F := Ideal) (φ := .f32) (Host.reduceAdd (F := Ideal) (φ := .f32) (cntv A) (constant (F := Ideal) S_ .f32 0x00000000#32) reducesTo_S10_S_d0 h_S_)
    (constant (F := Ideal) S_ .f32 0x3F800000#32)

/-- The number of non-empty bins, at least 1. -/
def nnev (A : S2x8x128.Idx → EReal) : S_.Idx → EReal :=
  maximumf (F := Ideal) (φ := .f32) (Host.reduceAdd (F := Ideal) (φ := .f32)
      (uitofp (F := Ideal) .f32 (cmpf (F := Ideal) (φ := .f32) .ogt (cntv A) (broadcastInDim S10 ![] bcast_S_S10 (constant (F := Ideal) S_ .f32 0x00000000#32))))
      (constant (F := Ideal) S_ .f32 0x00000000#32) reducesTo_S10_S_d0 h_S_)
    (constant (F := Ideal) S_ .f32 0x3F800000#32)

/-- The bins' weights. -/
def pbwv (A : S2x8x128.Idx → EReal) : S10.Idx → EReal :=
  Host.divf (F := Ideal) (φ := .f32)
    (select (cmpf (F := Ideal) (φ := .f32) .ogt (cntv A) (broadcastInDim S10 ![] bcast_S_S10 (constant (F := Ideal) S_ .f32 0x00000000#32)))
      (Host.divf (F := Ideal) (φ := .f32) (broadcastInDim S10 ![] bcast_S_S10 (totv A))
        (maximumf (F := Ideal) (φ := .f32) (cntv A) (broadcastInDim S10 ![] bcast_S_S10 (constant (F := Ideal) S_ .f32 0x3F800000#32))))
      (broadcastInDim S10 ![] bcast_S_S10 (id (constant (F := Ideal) S_ .f32 0x00000000#32))))
    (broadcastInDim S10 ![] bcast_S_S10 (nnev A))

/-- The result of the host lines. -/
def tailFn (A : S2x8x128.Idx → EReal) : S_.Idx → EReal :=
  mulf (F := Ideal) (φ := .f32)
    (Host.divf (F := Ideal) (φ := .f32)
      (Host.reduceAdd (F := Ideal) (φ := .f32) (mulf (F := Ideal) (φ := .f32) (pbwv A) (smv A)) (constant (F := Ideal) S_ .f32 0x00000000#32) reducesTo_S10_S_d0 h_S_)
      (totv A))
    (constant (F := Ideal) S_ .f32 0x3F800000#32)

end Cert.KernelIdeal.Tail

end
-- ==== Proof.KTail.lean ====
/-
  The host lines after the call, read at the extended reals.

  Adding the two cores' blocks and reading row 0 and row 1 at lanes 0 … 9 gives, for each bin, its count and its
  weighted sum (each the sum of the two cores' entries). The total is the larger of the counts' sum and 1; a count is
  positive exactly when its comparison bit is 1, and that bit as a number is the indicator of positivity, so the
  number of non-empty bins is the larger of the sum of the indicators and 1; a bin's weight is the quotient by that
  number of total / max count 1 where the count is positive and 0 elsewhere; the result is the sum over the bins of
  weight times weighted sum, divided by the total, times 1.
-/
import Mathlib
import Idealize.ShloMosaic.PureOps.Ideal.Laws
import Idealize.ShloMosaic.Lib.IdealHost
import Idealize.ShloMosaic.Lib.ValueIdx
import Idealize.ShloMosaic.Lib.Pipeline.Value
import Idealize.ShloMosaic.Lib.ValueLayout
import proofs.«150911_j10273561772276_2_alg».proof.Proof.KTailDef

noncomputable section

namespace Cert.KernelIdeal.Tail

open Idealize.ShloMosaic Idealize.ShloMosaic.ValueIdx Cert.KernelIdeal
open scoped BigOperators

variable [Facts₀]
open Facts₀

/-! ## Sums over a rank-1 index set -/

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-! ## The operations at an index -/

/-- The host's quotient at an index. -/
theorem hostDivf_apply {s : Shape} {φ : FTy} (a b : FVec Ideal s φ) (i : s.Idx) :
    Host.divf a b i = Ideal.div (a i) (b i) := rfl

/-- A one-bit word as a number, at an index. -/
theorem uitofp_apply {s : Shape} {φ : FTy} (x : IVec s 1) (i : s.Idx) :
    (uitofp (F := Ideal) φ x) i = (((x i).toNat : ℝ) : EReal) := rfl

/-- A scalar broadcast to the ten bins reads the scalar everywhere. -/
theorem bcast_apply (x : S_.Idx → EReal) (j : S10.Idx) : broadcastInDim S10 ![] bcast_S_S10 x j = x ix0 :=
  broadcastInDim_apply _ bcast_S_S10 x j ix0 (fun a => a.elim0)

/-- The bit of "c is above 0", as a number, is the indicator of 0 < c. -/
theorem gt_bit (c : EReal) : (((Ideal.cmp .ogt c 0).toNat : ℝ) : EReal) = Spec.ind (0 < c) := by
  unfold Ideal.cmp Spec.ind
  by_cases h : 0 < c
  · simp [h]
  · simp [h]

/-- A select on the bit of "c is above 0" is the choice on 0 < c. -/
theorem select_gt (c a b : EReal) : Scalar.select (Ideal.cmp .ogt c 0) a b = if 0 < c then a else b := by
  unfold Ideal.cmp Scalar.select
  by_cases h : 0 < c
  · simp [h]
  · simp [h]

/-- The host's sum of a vector of ten from 0 is the sum of its ten entries. -/
theorem reduce10 (g : S10.Idx → EReal) (i : S_.Idx) :
    Host.reduceAdd (F := Ideal) (φ := .f32) g (constant (F := Ideal) S_ .f32 0x00000000#32) reducesTo_S10_S_d0 h_S_ i
      = ∑ k : Fin 10, g (ix1 k) := by
  show Ideal.hostReduceAdd reducesTo_S10_S_d0 g (Ideal.ofBits .f32 0x00000000#32) i = _
  rw [Ideal.hostReduceAdd_total reducesTo_S10_S_d0 (fun b => b.elim0), Ideal.ofBits_zero_f32, zero_add, sum_idx1]

/-! ## The two cores' blocks added, and its rows 0 and 1 -/

/-- The index the sum over the cores inserts a core number into. -/
theorem lift_eq (hR : S2x8x128.Reduces [0] S8x128) (r : Fin 8) (l : Fin 128) (k : Fin 2) :
    hR.lift (ix2 r l) k = ix3 k r l := by
  funext a
  apply Fin.ext
  match a with
  | ⟨0, _⟩ => rfl
  | ⟨1, _⟩ => rfl
  | ⟨2, _⟩ => rfl

/-- The added blocks at (r, l): the two cores' entries there, summed. -/
theorem added_apply (A : S2x8x128.Idx → EReal) (r : Fin 8) (l : Fin 128) :
    added A (ix2 r l) = ∑ c' : Fin 2, A (ix3 c' r l) := by
  have hR : S2x8x128.Reduces [0] S8x128 := by decide
  show Ideal.hostReduceAdd reducesTo_S2x8x128_S8x128_d0 A (Ideal.ofBits .f32 0x00000000#32) (ix2 r l) = _
  rw [Ideal.hostReduceAdd_single reducesTo_S2x8x128_S8x128_d0 hR, Ideal.ofBits_zero_f32, zero_add]
  exact Finset.sum_congr rfl (fun k _ => congrArg A (lift_eq hR r l k))

/-- Row 0, lanes 0 … 9 of an [8, 128] array. -/
theorem slice0_apply (x : S8x128.Idx → EReal) (k : Fin 10) :
    extractStridedSlice S1x10 ![0, 0] x slices_S8x128_S1x10_0_0 (ix2 (0 : Fin 1) k) = x (ix2 (0 : Fin 8) (lane10 k)) := by
  unfold extractStridedSlice
  refine congrArg x (funext fun a => Fin.ext ?_)
  match a with
  | ⟨0, _⟩ => rfl
  | ⟨1, _⟩ => exact Nat.zero_add _

/-- Row 1, lanes 0 … 9 of an [8, 128] array. -/
theorem slice1_apply (x : S8x128.Idx → EReal) (k : Fin 10) :
    extractStridedSlice S1x10 ![1, 0] x slices_S8x128_S1x10_1_0 (ix2 (0 : Fin 1) k) = x (ix2 (1 : Fin 8) (lane10 k)) := by
  unfold extractStridedSlice
  refine congrArg x (funext fun a => Fin.ext ?_)
  match a with
  | ⟨0, _⟩ => rfl
  | ⟨1, _⟩ => exact Nat.zero_add _

/-- The count of bin k: the two cores' row-0 entries at lane k, summed. -/
theorem cntv_apply (A : S2x8x128.Idx → EReal) (k : Fin 10) :
    cntv A (ix1 k) = ∑ c' : Fin 2, A (ix3 c' (0 : Fin 8) (lane10 k)) := by
  unfold cntv
  rw [shapeCast_1a_a_apply, slice0_apply, added_apply]

/-- The weighted sum of bin k: the two cores' row-1 entries at lane k, summed. -/
theorem smv_apply (A : S2x8x128.Idx → EReal) (k : Fin 10) :
    smv A (ix1 k) = ∑ c' : Fin 2, A (ix3 c' (1 : Fin 8) (lane10 k)) := by
  unfold smv
  rw [shapeCast_1a_a_apply, slice1_apply, added_apply]

/-! ## The total, the number of non-empty bins, the weights, the result -/

section
variable (A : S2x8x128.Idx → EReal) (cnt sm : BitVec 32 → EReal)
  (h0 : ∀ k : Fin 10, ∑ c' : Fin 2, A (ix3 c' (0 : Fin 8) (lane10 k)) = cnt (Spec.bv k))
include h0

/-- The count vector at bin k. -/
theorem cntv_eq (k : Fin 10) : cntv A (ix1 k) = cnt (Spec.bv k) := by
  rw [cntv_apply, h0]

/-- The total. -/
theorem totv_apply (i : S_.Idx) : totv A i = max (∑ k : Fin 10, cnt (Spec.bv k)) 1 := by
  unfold totv
  rw [maximumf_apply, reduce10, constant_apply, Ideal.ofBits_one_f32]
  simp only [cntv_eq A cnt h0]

/-- The positivity bit of a count, as a number. -/
theorem pos_apply (k : Fin 10) :
    uitofp (F := Ideal) .f32 (cmpf (F := Ideal) (φ := .f32) .ogt (cntv A)
        (broadcastInDim S10 ![] bcast_S_S10 (constant (F := Ideal) S_ .f32 0x00000000#32))) (ix1 k)
      = Spec.ind (0 < cnt (Spec.bv k)) := by
  rw [uitofp_apply, cmpf_apply, Ideal.cmpf_def, bcast_apply, constant_apply, Ideal.ofBits_zero_f32, gt_bit,
    cntv_eq A cnt h0]

/-- The number of non-empty bins. -/
theorem nnev_apply (i : S_.Idx) : nnev A i = Spec.nne cnt := by
  unfold nnev Spec.nne
  rw [maximumf_apply, reduce10, constant_apply, Ideal.ofBits_one_f32]
  simp only [pos_apply A cnt h0]

/-- The weight of bin k. -/
theorem pbwv_apply (k : Fin 10) :
    pbwv A (ix1 k) = Spec.pbw cnt (max (∑ k : Fin 10, cnt (Spec.bv k)) 1) (Spec.bv k) := by
  unfold pbwv Spec.pbw
  rw [hostDivf_apply, select_apply, cmpf_apply, Ideal.cmpf_def, hostDivf_apply, maximumf_apply]
  repeat rw [bcast_apply]
  simp only [constant_apply, id, Ideal.ofBits_zero_f32, Ideal.ofBits_one_f32, select_gt,
    cntv_eq A cnt h0, totv_apply A cnt h0, nnev_apply A cnt h0]

end

/-- The host lines' result, from the counts and the weighted sums of the ten bins. -/
theorem tail_eq (A : Cert.KernelIdeal.S2x8x128.Idx → EReal) (cnt sm : BitVec 32 → EReal)
    (h0 : ∀ k : Fin 10, ∑ c' : Fin 2, A (Idealize.ShloMosaic.ValueIdx.ix3 c' (0 : Fin 8) (Cert.KernelIdeal.Tail.lane10 k)) = cnt (Cert.Spec.bv k))
    (h1 : ∀ k : Fin 10, ∑ c' : Fin 2, A (Idealize.ShloMosaic.ValueIdx.ix3 c' (1 : Fin 8) (Cert.KernelIdeal.Tail.lane10 k)) = sm (Cert.Spec.bv k)) :
    Cert.KernelIdeal.Tail.tailFn A = fun _ =>
      Idealize.ShloMosaic.Ideal.div
        (∑ k : Fin 10, Cert.Spec.pbw cnt (max (∑ k : Fin 10, cnt (Cert.Spec.bv k)) 1) (Cert.Spec.bv k) * sm (Cert.Spec.bv k))
        (max (∑ k : Fin 10, cnt (Cert.Spec.bv k)) 1) * 1 := by
  funext i
  unfold tailFn
  rw [mulf_apply, constant_apply, Ideal.ofBits_one_f32, hostDivf_apply, reduce10, totv_apply A cnt h0]
  simp only [mulf_apply, pbwv_apply A cnt h0, smv_apply, h1]

end Cert.KernelIdeal.Tail

end
-- ==== Proof.KValue.lean ====
/-
  The idealized kernel's result. The counts and weighted sums the call leaves, summed over the two cores' blocks, are
  the sums over ALL elements of the argument arrays of the elements' contributions (the twenty blocks tile the
  lane-dense view, which holds the arguments' elements in row-major order); the host lines after the call turn them
  into the loss. So the program ends with its result at Kform of its three arguments, and the arguments unchanged.
-/
import proofs.«150911_j10273561772276_2_alg».proof.Proof.KBlocks
import proofs.«150911_j10273561772276_2_alg».proof.Proof.KFinal
import proofs.«150911_j10273561772276_2_alg».proof.Proof.KGrid
import proofs.«150911_j10273561772276_2_alg».proof.Proof.KTail
import Idealize.ShloMosaic.Lib.StableHlo.Run

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.KElem Cert.Spec Cert.KIdx

variable (m : (ℓ : Loc nD τ sig) → Buf (Elt Ideal) ℓ) (ρ : Dev nD → PrngReg)

/-- The three arguments on core c. -/
abbrev X0 (c : Dev nD) : SE.Idx → EReal := m ((c : Thread nD τ).loc main_arg0)
abbrev X1 (c : Dev nD) : SE.Idx → BitVec 32 := m ((c : Thread nD τ).loc main_arg1)
abbrev X2 (c : Dev nD) : SE.Idx → EReal := m ((c : Thread nD τ).loc main_arg2)

/-- The array of statistics the call leaves on core c. -/
def outFinal (c : Dev nD) : S2x8x128.Idx → EReal := (dats m 0 c).arrAt 3 cfg0.N

theorem outFinal_apply (c : Dev nD) (c' : Fin 2) (r : Fin 8) (l : Fin 128) :
    outFinal m c (ix3 c' r l) = outArr m c (ix3 c' r l) := final3_apply m c c' r l

/-- The counts the call leaves, added over the two cores' blocks, count the valid elements of each bin. -/
theorem cnt_total (c : Dev nD) (k : Fin 10) :
    ∑ c' : Fin 2, outFinal m c (ix3 c' (0 : Fin 8) (Tail.lane10 k))
      = cntOf (binK (X0 m c) (X1 m c)) (X2 m c) (bv k) := by
  have hsc : S524288x80.ShapeCasts S327680x128 := Gen.shapeCasts_S524288x80_S327680x128
  have e1 : ∀ c' : Fin 2, outFinal m c (ix3 c' (0 : Fin 8) (Tail.lane10 k))
      = ∑ k' ∈ Finset.range 10, (if hh : 10 * c'.val + k' < 20 then
          ∑ j : KIdx.SB.Idx, fCnt (X0 m c) (X1 m c) (X2 m c) k (rho hsc (blockIdx ⟨10 * c'.val + k', hh⟩ j)) else 0) := by
    intro c'
    refine ((outFinal_apply m c c' (0 : Fin 8) (lane k)).trans (outArr_row0 m c c' k)).trans ?_
    refine Finset.sum_congr rfl fun k' hk' => ?_
    have hh : 10 * c'.val + k' < 20 := by have := Finset.mem_range.mp hk'; omega
    rw [dif_pos hh]
    exact ptCnt_eq m c hsc _ hh k
  rw [Finset.sum_congr rfl fun c' _ => e1 c']
  exact Cert.KIdx.sum_grid (rho hsc) (fCnt (X0 m c) (X1 m c) (X2 m c) k)

/-- And the weighted sums add the valid elements' weighted cross entropies, bin by bin. -/
theorem sum_total (c : Dev nD) (k : Fin 10) :
    ∑ c' : Fin 2, outFinal m c (ix3 c' (1 : Fin 8) (Tail.lane10 k))
      = sumOf (X0 m c) (X1 m c) (X2 m c) (bv k) := by
  have hsc : S524288x80.ShapeCasts S327680x128 := Gen.shapeCasts_S524288x80_S327680x128
  have e1 : ∀ c' : Fin 2, outFinal m c (ix3 c' (1 : Fin 8) (Tail.lane10 k))
      = ∑ k' ∈ Finset.range 10, (if hh : 10 * c'.val + k' < 20 then
          ∑ j : KIdx.SB.Idx, fSum (X0 m c) (X1 m c) (X2 m c) k (rho hsc (blockIdx ⟨10 * c'.val + k', hh⟩ j)) else 0) := by
    intro c'
    refine ((outFinal_apply m c c' (1 : Fin 8) (lane k)).trans (outArr_row1 m c c' k)).trans ?_
    refine Finset.sum_congr rfl fun k' hk' => ?_
    have hh : 10 * c'.val + k' < 20 := by have := Finset.mem_range.mp hk'; omega
    rw [dif_pos hh]
    exact ptSum_eq m c hsc _ hh k
  rw [Finset.sum_congr rfl fun c' _ => e1 c']
  exact Cert.KIdx.sum_grid (rho hsc) (fSum (X0 m c) (X1 m c) (X2 m c) k)

set_option maxHeartbeats 8000000 in
/-- The host lines after the call, applied to the array the call leaves. -/
theorem tail_read (c : Dev nD) :
    Pipeline.afterTail₀ cfgs (dats m) 0 (V0 m) [hostOps1, hostOps1_1, hostOps1_2] c main_v28
      = Tail.tailFn (outFinal m c) := by
  have hw : Pipeline.withArrays (cfgs 0).spec c (V0 m c) (fun w => (dats m 0 c).arrAt w (cfgs 0).N) (Proc.devRef .tc main_v3)
      = (dats m 0 c).arrAt 3 cfg0.N := Pipeline.withArrays_arr spec0 launch0.win.arr_inj c _ _ 3
  unfold Pipeline.afterTail₀
  simp only [hostOps1, hostOps1_1, hostOps1_2, List.flatten_cons, List.flatten_nil, List.append_nil, List.cons_append, List.nil_append]
  after_results_simp
  rw [hw]
  rfl

/-- The result of the idealized kernel on core c. -/
theorem kernel_value (c : Dev nD) :
    Pipeline.afterTail₀ cfgs (dats m) 0 (V0 m) [hostOps1, hostOps1_1, hostOps1_2] c main_v28
      = fun _ => Kform (X0 m c) (X1 m c) (X2 m c) := by
  rw [tail_read, Tail.tail_eq _ (cntOf (binK (X0 m c) (X1 m c)) (X2 m c)) (sumOf (X0 m c) (X1 m c) (X2 m c))
    (cnt_total m c) (sum_total m c)]
  rfl

/-- The run, read: the result at Kform of the arguments, the arguments unchanged. -/
theorem run : θ_run defs (onTc (τ := τ) (main (F := Ideal))) ⟨m, fun _ => 0, ρ⟩ fun r => ∀ c : Dev nD,
      r.2.mem ((c.tc : Thread nD τ).loc main_v28) = (fun _ => Kform (X0 m c) (X1 m c) (X2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v28 (Pipeline.mem_restRefs_of main_v28 (by decide) (by decide))).trans (kernel_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV

end
-- ==== Proof.RefWords.lean ====
/-
  Words and constants the reference's stages meet once read at one element: the three float constants as extended
  reals, a strict comparison's bit as the proposition it decides, the range of a value clipped to 0 … 9, and the
  32-bit word of a bin number.
-/
import Mathlib
import Idealize.ShloMosaic.PureOps.Ideal
import Idealize.ShloMosaic.PureOps.Ideal.Laws
import Idealize.ShloMosaic.Lib.IdealHost
import Idealize.ShloMosaic.Lib.ValueIdx
import proofs.«150911_j10273561772276_2_alg».proof.Proof.Spec

noncomputable section

namespace Cert.RefValue

open Idealize.ShloMosaic Cert.Spec

/-- The single-precision pattern 0x41200000 is ten. -/
theorem ofBits_ten_f32_coe : Ideal.ofBits .f32 0x41200000#32 = ((10 : ℝ) : EReal) := by
  simp [Ideal.ofBits, Ideal.ieee, -EReal.coe_mul]; norm_num

/-- The same, at the extended reals' own numeral. -/
theorem ofBits_ten_f32 : Ideal.ofBits .f32 0x41200000#32 = 10 := by
  rw [ofBits_ten_f32_coe]; norm_cast

/-- The bit of "x is greater than y" is 1 exactly when y < x. -/
theorem cmp_ogt_eq_one_iff (x y : EReal) : Ideal.cmp .ogt x y = 1#1 ↔ y < x := by
  unfold Ideal.cmp
  by_cases h : y < x <;> simp [h]

/-- A select on that bit is the `if` on the inequality. -/
theorem select_cmp_ogt {α : Type} (x y : EReal) (a b : α) :
    Scalar.select (Ideal.cmp .ogt x y) a b = if y < x then a else b := by
  unfold Scalar.select
  by_cases h : y < x
  · rw [if_pos (show Ideal.cmp .ogt x y = 1 from (cmp_ogt_eq_one_iff x y).2 h), if_pos h]
  · rw [if_neg (show ¬ Ideal.cmp .ogt x y = 1 from fun hc => h ((cmp_ogt_eq_one_iff x y).1 hc)), if_neg h]

/-- The 0/1 indicator of that bit is the indicator of the inequality. -/
theorem ite_cmp_ogt (x y : EReal) : (if Ideal.cmp .ogt x y = 1#1 then (1 : EReal) else 0) = ind (y < x) := by
  unfold ind
  by_cases h : y < x
  · rw [if_pos ((cmp_ogt_eq_one_iff x y).2 h), if_pos h]
  · rw [if_neg (fun hc => h ((cmp_ogt_eq_one_iff x y).1 hc)), if_neg h]

/-- That bit read as an unsigned number, as a real, is the indicator of the inequality. -/
theorem toNat_cmp_ogt (x y : EReal) : (((Ideal.cmp .ogt x y).toNat : ℝ) : EReal) = ind (y < x) := by
  unfold ind
  by_cases h : y < x
  · rw [(cmp_ogt_eq_one_iff x y).2 h, if_pos h]; simp
  · rw [ValueIdx.eq_zero_of_ne_one (fun hc => h ((cmp_ogt_eq_one_iff x y).1 hc)), if_neg h]; simp

/-- A word clipped below at 0 and above at 9, read signed, lies in 0 … 9. -/
theorem clip_range (z : BitVec 32) :
    0 ≤ (IntOp.minsi 9#32 (IntOp.maxsi 0#32 z)).toInt ∧ (IntOp.minsi 9#32 (IntOp.maxsi 0#32 z)).toInt ≤ 9 := by
  have h9 : (9#32 : BitVec 32).toInt = 9 := by decide
  have h0 : (0#32 : BitVec 32).toInt = 0 := by decide
  simp only [IntOp.minsi, IntOp.maxsi, BitVec.slt, decide_eq_true_eq]
  split_ifs <;> constructor <;> omega

/-- The word of bin number k, read signed, is k. -/
theorem bv_toInt (k : Fin 10) : (bv k).toInt = (k.val : ℤ) := by
  have hk := k.isLt
  unfold bv
  rw [BitVec.toInt_eq_toNat_cond, BitVec.toNat_ofNat, Nat.mod_eq_of_lt (by omega), if_pos (by omega)]

/-- A word is the word of bin number k exactly when, read signed, it is k. -/
theorem eq_bv_iff (b : BitVec 32) (k : Fin 10) : b = bv k ↔ b.toInt = (k.val : ℤ) := by
  rw [← bv_toInt k]
  exact BitVec.toInt_inj.symm

/-- A word that reads signed in 0 … 9 is the word of the bin number it reads. -/
theorem bv_of_range (b : BitVec 32) (h0 : 0 ≤ b.toInt) (h9 : b.toInt ≤ 9) :
    bv ⟨min b.toInt.toNat 9, by omega⟩ = b := by
  symm
  rw [eq_bv_iff]
  show b.toInt = ((min b.toInt.toNat 9 : ℕ) : ℤ)
  omega

end Cert.RefValue

end
-- ==== Proof.RefElem.lean ====
/-
  The reference's per-element stages, read at one element at the ideal instance: the target as a real, the validity
  bit, the sigmoid 1 / (1 + exp (−x)), the bin (the distance |s − t| · 10 truncated and clipped to 0 … 9) and the
  cross entropy max x 0 − x · t + log (1 + exp (−|x|)). Each is the function Spec names.
-/
import proofs.«150911_j10273561772276_2_alg».proof.Proof.ReadP
import proofs.«150911_j10273561772276_2_alg».proof.Proof.Spec
import proofs.«150911_j10273561772276_2_alg».proof.Proof.RefWords

noncomputable section

namespace Cert.RefValue

open Cert.ReferenceIdeal Cert.ReferenceIdeal.Gen Cert.ReferenceIdeal.ReadP Idealize.ShloMosaic Cert.Spec

variable (x0 : SE.Idx → EReal) (x1 : SE.Idx → BitVec 32) (x2 : SE.Idx → EReal)

/-- The converted target is the target as a real. -/
theorem v0_apply (e : SE.Idx) : val_main_v0 (F := Ideal) x1 e = tgt (x1 e) := rfl

/-- The validity bit is the bit of 0 < w. -/
theorem v2_apply (e : SE.Idx) : val_main_v2 (F := Ideal) x2 e = Ideal.cmp .ogt (x2 e) 0 := by
  rw [val_main_v2_apply, val_main_v1_apply, val_main_cst_apply]
  show Ideal.cmp .ogt (x2 e) (Ideal.ofBits .f32 0x00000000#32) = _
  rw [Ideal.ofBits_zero_f32]

/-- The sigmoid stage is 1 / (1 + exp (−x)). -/
theorem v12_apply (e : SE.Idx) : val_main_v12 (F := Ideal) x0 e = sigR (x0 e) := by
  rw [val_main_v12_apply, val_main_v11_apply, val_main_cst_2_apply, val_main_v10_apply, val_main_v9_apply,
    val_main_cst_1_apply, val_main_v8_apply, val_main_v7_apply]
  show Ideal.div (Ideal.ofBits .f32 0x3F800000#32) (Ideal.ofBits .f32 0x3F800000#32 + Ideal.exp (-(x0 e))) = _
  rw [Ideal.ofBits_one_f32]
  rfl

/-- The clipped, truncated distance is the bin. -/
theorem v18_apply (e : SE.Idx) : val_main_v18 (F := Ideal) x0 x1 e = binR x0 x1 e := by
  rw [val_main_v18_apply, val_main_call0_v4_apply, val_main_call0_v3_apply, val_main_c_5_apply,
    val_main_call0_v2_apply, val_main_call0_v1_apply, val_main_call0_v0_apply, val_main_c_4_apply,
    val_main_v17_apply, val_main_v16_apply, val_main_v15_apply, val_main_cst_3_apply, val_main_v14_apply,
    val_main_v13_apply, v12_apply, v0_apply]
  show IntOp.minsi 9#32 (IntOp.maxsi 0#32
    (Ideal.fptosi 32 (ab (sigR (x0 e) - tgt (x1 e)) * Ideal.ofBits .f32 0x41200000#32))) = _
  rw [ofBits_ten_f32]
  rfl

/-- The cross-entropy stage is max x 0 − x · t + log (1 + exp (−|x|)). -/
theorem v56_apply (e : SE.Idx) : val_main_v56 (F := Ideal) x0 x1 e = bceR (x0 e) (x1 e) := by
  rw [val_main_v56_apply, val_main_v55_apply, val_main_v54_apply, val_main_v53_apply, val_main_v52_apply,
    val_main_v51_apply, val_main_v50_apply, val_main_v49_apply, val_main_v48_apply, val_main_cst_16_apply, v0_apply]
  show max (x0 e) (Ideal.ofBits .f32 0x00000000#32) - x0 e * tgt (x1 e)
    + Ideal.log1p (Ideal.exp (-(ab (x0 e)))) = _
  rw [Ideal.ofBits_zero_f32]
  rfl

end Cert.RefValue

end
-- ==== Proof.LibIndicatorFolds.lean ====
/-
  Folds of one-bit conditions over a finite index set.

  "Some condition holds" appears in two forms: as the `or` of the bits, and as a positive maximum of their 0/1
  indicators (taken from `⊥`, the value of `-∞`). "How many hold" appears in two forms as well: as the sum of the 0/1
  indicators on the extended reals, and as the 32-bit sum of the bits zero-extended to words, which does not wrap while
  there are fewer than 2^31 of them. Each form is reduced here to the plain statement about the set of indices whose
  bit is `1`: existence, and cardinality.
-/
import Mathlib
import Idealize.ShloMosaic.PureOps.Reduce

namespace IndicatorFolds

open Idealize.ShloMosaic

variable {ι : Type*} [DecidableEq ι]

/-- On one-bit words `or` is `1` exactly when an operand is. -/
theorem ori_eq_one_iff (x y : BitVec 1) : IntOp.ori x y = 1#1 ↔ x = 1#1 ∨ y = 1#1 := by
  rcases BitVec.eq_zero_or_eq_one x with rfl | rfl <;> rcases BitVec.eq_zero_or_eq_one y with rfl | rfl <;> decide

/-- The `or` of one-bit words over a finite set, from `0`, is `1` exactly when one of them is `1`. -/
theorem fold_ori_eq_one_iff (s : Finset ι) (c : ι → BitVec 1) :
    s.fold IntOp.ori 0#1 c = 1#1 ↔ ∃ p ∈ s, c p = 1#1 := by
  induction s using Finset.induction_on with
  | empty => simp
  | insert a s ha ih =>
    rw [Finset.fold_insert ha, ori_eq_one_iff, ih, Finset.exists_mem_insert]

/-- The maximum, from `⊥`, of the 0/1 indicators of the bits is positive exactly when one of the bits is `1`. -/
theorem zero_lt_fold_max_iff (s : Finset ι) (c : ι → BitVec 1) :
    (0 : EReal) < s.fold max ⊥ (fun p => if c p = 1#1 then (1 : EReal) else 0) ↔ ∃ p ∈ s, c p = 1#1 := by
  induction s using Finset.induction_on with
  | empty => simp
  | insert a s ha ih =>
    rw [Finset.fold_insert ha, lt_max_iff, ih, Finset.exists_mem_insert]
    refine or_congr ?_ Iff.rfl
    by_cases h : c a = 1#1
    · simp [h]
    · simp [h]

/-- The sum of the 0/1 indicators of the bits is the number of bits that are `1`. -/
theorem sum_indicator_eq_card (s : Finset ι) (c : ι → BitVec 1) :
    ∑ p ∈ s, (if c p = 1#1 then (1 : EReal) else 0) = (((s.filter fun p => c p = 1#1).card : ℝ) : EReal) := by
  induction s using Finset.induction_on with
  | empty => simp
  | insert a s ha ih =>
    rw [Finset.sum_insert ha, ih, Finset.filter_insert]
    by_cases h : c a = 1#1
    · rw [if_pos h, if_pos h, Finset.card_insert_of_notMem (fun hm => ha (Finset.mem_filter.1 hm).1)]
      rw [Nat.cast_succ, EReal.coe_add, EReal.coe_one, add_comm]
    · rw [if_neg h, if_neg h, zero_add]

/-- The 32-bit sum, from `0`, of the bits zero-extended to words is the word of the number of bits that are `1`. -/
theorem fold_addi_setWidth (s : Finset ι) (c : ι → BitVec 1) :
    s.fold IntOp.addi 0#32 (fun p => (c p).setWidth 32) = BitVec.ofNat 32 (s.filter fun p => c p = 1#1).card := by
  induction s using Finset.induction_on with
  | empty => simp
  | insert a s ha ih =>
    rw [Finset.fold_insert ha, ih, Finset.filter_insert]
    by_cases h : c a = 1#1
    · rw [if_pos h, Finset.card_insert_of_notMem (fun hm => ha (Finset.mem_filter.1 hm).1), h]
      show (1#1 : BitVec 1).setWidth 32 + BitVec.ofNat 32 _ = _
      rw [Nat.add_comm, BitVec.ofNat_add]
      rfl
    · rw [if_neg h]
      rcases BitVec.eq_zero_or_eq_one (c a) with h0 | h1
      · rw [h0]
        show (0#1 : BitVec 1).setWidth 32 + BitVec.ofNat 32 _ = _
        simp
      · exact absurd h1 h

/-- Read as a signed integer that word is the number itself, as long as the set has fewer than 2^31 elements. -/
theorem toInt_fold_addi_setWidth (s : Finset ι) (c : ι → BitVec 1) (hs : s.card < 2 ^ 31) :
    (s.fold IntOp.addi 0#32 (fun p => (c p).setWidth 32)).toInt = ((s.filter fun p => c p = 1#1).card : ℤ) := by
  have hk : (s.filter fun p => c p = 1#1).card < 2 ^ 31 := lt_of_le_of_lt (Finset.card_filter_le _ _) hs
  rw [fold_addi_setWidth, BitVec.toInt_eq_toNat_cond, BitVec.toNat_ofNat]
  have : (s.filter fun p => c p = 1#1).card % 2 ^ 32 = (s.filter fun p => c p = 1#1).card := Nat.mod_eq_of_lt (by omega)
  rw [this, if_pos (by omega)]

end IndicatorFolds
-- ==== Proof.RefIntSum.lean ====
/-
  The integer sums of the reference: a 32-bit sum, down to a scalar, of one-bit conditions widened to words. Read
  signed and as a real it is the sum of the conditions' 0/1 indicators, as long as there are fewer than 2^31 of them.
  Also: the number of indices of a rank-1 and of a rank-2 shape, and a sum over a rank-1 index set as the sum over its
  coordinate.
-/
import Mathlib
import Idealize.ShloMosaic.PureOps.Reduce
import Idealize.ShloMosaic.Lib.ValueIdx
import proofs.«150911_j10273561772276_2_alg».proof.Proof.LibIndicatorFolds

noncomputable section

namespace Cert.RefValue

open Idealize.ShloMosaic
open scoped BigOperators

/-- A rank-1 index set is its coordinate's range. -/
def idxEquiv1 {n : Nat} : (⟨1, ![n]⟩ : Shape).Idx ≃ Fin n where
  toFun i := i 0
  invFun k := ValueIdx.ix1 k
  left_inv i := (ValueIdx.eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ k : Fin n, f (ValueIdx.ix1 k) := by
  rw [← Equiv.sum_comp (idxEquiv1 (n := n)).symm f]
  rfl

/-- A rank-1 shape of extent n has n indices. -/
theorem card_idx1 (n : Nat) : Fintype.card (⟨1, ![n]⟩ : Shape).Idx = n := by
  rw [Fintype.card_congr idxEquiv1, Fintype.card_fin]

/-- A rank-2 shape of extents n0, n1 has n0 · n1 indices. -/
theorem card_idx2 (n0 n1 : Nat) : Fintype.card (⟨2, ![n0, n1]⟩ : Shape).Idx = n0 * n1 := by
  rw [Fintype.card_congr ValueIdx.idxEquiv2, Fintype.card_prod, Fintype.card_fin, Fintype.card_fin]

/-- The 32-bit sum, from a zero word and down to a scalar, of one-bit conditions widened to words, read signed and as
    a real, is the sum of the conditions' 0/1 indicators when the index set has fewer than 2^31 elements. -/
theorem reduce_addi_bits {s : Shape} {axes : List (Fin s.rank)} (h : s.ReducesTo axes ⟨0, ![]⟩)
    (hu : 0 < (⟨0, ![]⟩ : Shape).numel) (c : s.Idx → BitVec 1) (init : (⟨0, ![]⟩ : Shape).Idx → BitVec 32)
    (h0 : ∀ i, init i = 0#32) (hc : Fintype.card s.Idx < 2 ^ 31) (j : (⟨0, ![]⟩ : Shape).Idx) :
    (((Host.reduce IntOp.addi (fun i => (c i).setWidth 32) init h hu j).toInt : ℝ) : EReal)
      = ∑ i : s.Idx, (if c i = 1#1 then (1 : EReal) else 0) := by
  classical
  rw [Host.reduce_eq_fold, h0]
  have hf : (Finset.univ.filter fun i => h.drop i = j) = Finset.univ :=
    Finset.filter_true_of_mem fun i _ => funext fun a => a.elim0
  rw [hf, IndicatorFolds.toInt_fold_addi_setWidth Finset.univ c (by rw [Finset.card_univ]; exact hc),
    IndicatorFolds.sum_indicator_eq_card, Int.cast_natCast]

end Cert.RefValue

end
-- ==== Proof.RefTotal.lean ====
/-
  The reference's total, read at the ideal instance: the 32-bit sum of the validity bits, read signed, as a real,
  at least 1. It is the number of valid elements, at least 1: there are 41,943,040 elements, fewer than 2^31, so the
  32-bit sum does not wrap.
-/
import proofs.«150911_j10273561772276_2_alg».proof.Proof.ReadP
import proofs.«150911_j10273561772276_2_alg».proof.Proof.Spec
import proofs.«150911_j10273561772276_2_alg».proof.Proof.RefWords
import proofs.«150911_j10273561772276_2_alg».proof.Proof.RefIntSum
import proofs.«150911_j10273561772276_2_alg».proof.Proof.RefElem

noncomputable section

namespace Cert.RefValue

open Cert.ReferenceIdeal Cert.ReferenceIdeal.Gen Cert.ReferenceIdeal.ReadP Idealize.ShloMosaic
  Idealize.ShloMosaic.ValueIdx Cert.Spec
open scoped BigOperators

/-- The argument arrays have fewer than 2^31 elements. -/
theorem card_SE_lt : Fintype.card (⟨2, ![524288, 80]⟩ : Shape).Idx < 2 ^ 31 := by
  rw [card_idx2]; norm_num

/-- The sum of the validity bits' indicators is the number of valid elements. -/
theorem sum_v2_indicator (x2 : SE.Idx → EReal) :
    ∑ e : SE.Idx, (if val_main_v2 (F := Ideal) x2 e = 1#1 then (1 : EReal) else 0) = ∑ e : SE.Idx, ind (0 < x2 e) :=
  Finset.sum_congr rfl fun e _ => by rw [v2_apply, ite_cmp_ogt]

/-- The integer sum of the widened validity bits, read signed and as a real. -/
theorem v4_toInt (x2 : SE.Idx → EReal) (i : S_.Idx) :
    (((val_main_v4 (F := Ideal) x2 i).toInt : ℝ) : EReal) = ∑ e : SE.Idx, ind (0 < x2 e) := by
  rw [← sum_v2_indicator]
  exact reduce_addi_bits reducesTo_S524288x80_S_d0_1 h_S_ (val_main_v2 (F := Ideal) x2) (val_main_c (F := Ideal))
    (fun _ => rfl) card_SE_lt i

/-- The total. -/
theorem v6_apply (x2 : SE.Idx → EReal) (i : S_.Idx) : val_main_v6 (F := Ideal) x2 i = totR x2 := by
  rw [val_main_v6_apply, val_main_v5_apply, val_main_cst_0_apply]
  show max (((val_main_v4 (F := Ideal) x2 i).toInt : ℝ) : EReal) (Ideal.ofBits .f32 0x3F800000#32) = _
  rw [Ideal.ofBits_one_f32, v4_toInt]
  rfl

end Cert.RefValue

end
-- ==== Proof.RefScatter.lean ====
/-
  The reference's scatter-add, read at one element of its operand. An operand [N], scatter indices [M, 1] and updates
  [M] (what x.at[idx].add(u) of flat arrays lowers to): update j lands on the operand element whose number is the start
  index idx[j, 0] read signed, when that is inside the operand, and nowhere otherwise. So the result at element i is
  the operand's element plus the sum of the updates whose start index reads i. For the flat arrays that are row-major
  reshapes of [524288, 80] arrays the sum is re-indexed over the two-dimensional index set.
-/
import Mathlib
import Idealize.ShloMosaic.PureOps.Ideal
import Idealize.ShloMosaic.Lib.ValueIdx

noncomputable section

namespace Cert.RefValue

open Idealize.ShloMosaic Idealize.ShloMosaic.ValueIdx
open scoped BigOperators

/-- The dimension numbers of that scatter: no window axes, the operand's one axis inserted and scattered along, the
    index vector on the scatter indices' second axis. -/
abbrev addAtDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The scatter-indices index [j, 0] of update index j. -/
abbrev addAtIdx {M : Nat} (j : (⟨1, ![M]⟩ : Shape).Idx) : (⟨2, ![M, 1]⟩ : Shape).Idx :=
  fun a => match a with | ⟨0, _⟩ => ⟨(j 0).val, (j 0).isLt⟩ | ⟨1, _⟩ => ⟨0, Nat.one_pos⟩

/-- Update j lands on operand element i exactly when its start index, read signed, is i's number. -/
theorem addAt_resultIdx_eq_some_iff {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (addAtDims N M wf).resultIdx? j idx = some i ↔ (idx (addAtIdx j)).toInt = ((i 0).val : ℤ) := by
  have hstart : ∀ a, (addAtDims N M wf).start j idx a = (idx (addAtIdx j)).toInt := by
    intro a
    obtain rfl : a = 0 := Subsingleton.elim _ _
    unfold ScatterDims.start
    rw [dif_pos (show (0 : Fin 1) ∈ (addAtDims N M wf).scatterDimsToOperandDims from List.mem_singleton.mpr rfl)]
    have hsi : (addAtDims N M wf).siIdx j ⟨List.idxOf (0 : Fin 1) (addAtDims N M wf).scatterDimsToOperandDims,
        List.idxOf_lt_length_iff.2 (List.mem_singleton.mpr rfl)⟩ = addAtIdx j := by
      funext b; refine Fin.ext ?_
      match b with
      | ⟨0, _⟩ => rfl
      | ⟨1, _⟩ => rfl
    rw [hsi]
  have hwin : ∀ a, (addAtDims N M wf).window j a = 0 := by
    intro a
    obtain rfl : a = 0 := Subsingleton.elim _ _
    unfold ScatterDims.window
    rw [dif_neg (by simp [ScatterDims.sKept, Shape.kept])]
  have hi : (i 0).val < N := (i 0).isLt
  unfold ScatterDims.resultIdx?
  by_cases hc : ∀ a, 0 ≤ (addAtDims N M wf).start j idx a + (addAtDims N M wf).window j a ∧
      (addAtDims N M wf).start j idx a + (addAtDims N M wf).window j a < (⟨1, ![N]⟩ : Shape).size a
  · rw [dif_pos hc]
    have hc0 := hc 0
    rw [hstart, hwin] at hc0
    constructor
    · intro h
      have h1 := congrArg (fun f : (⟨1, ![N]⟩ : Shape).Idx => (f 0).val) (Option.some.inj h)
      have h2 : ((addAtDims N M wf).start j idx 0 + (addAtDims N M wf).window j 0).toNat = (i 0).val := h1
      rw [hstart, hwin] at h2
      omega
    · intro h
      congr 1
      funext a
      obtain rfl : a = 0 := Subsingleton.elim _ _
      refine Fin.ext ?_
      show ((addAtDims N M wf).start j idx 0 + (addAtDims N M wf).window j 0).toNat = (i 0).val
      rw [hstart, hwin]
      omega
  · rw [dif_neg hc]
    constructor
    · intro h; exact absurd h (by simp)
    · intro h
      exfalso
      apply hc
      intro a
      obtain rfl : a = 0 := Subsingleton.elim _ _
      rw [hstart, hwin]
      show 0 ≤ (idx (addAtIdx j)).toInt + ((0 : ℕ) : ℤ) ∧ (idx (addAtIdx j)).toInt + ((0 : ℕ) : ℤ) < ((N : ℕ) : ℤ)
      omega

/-- THE SCATTER-ADD READ AT i: the operand's element plus the updates whose start index reads i. -/
theorem addAt_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (addAtDims N M wf) x idx upd i
      = x i + ∑ j, if (idx (addAtIdx j)).toInt = ((i 0).val : ℤ) then upd j else 0 := by
  unfold Ideal.hostScatterAdd
  rw [Finset.sum_filter]
  refine congrArg (fun t => x i + t) ?_
  exact Finset.sum_congr rfl fun j _ => if_congr (addAt_resultIdx_eq_some_iff wf idx j i) rfl rfl

/-- The row-major bijection between the flat index set [41943040] and the index set [524288, 80]. -/
def flatEquiv : (⟨1, ![41943040]⟩ : Shape).Idx ≃ (⟨2, ![524288, 80]⟩ : Shape).Idx where
  toFun j := ix2 ⟨(j 0).val / 80, by have h0 : (j 0).val < 41943040 := (j 0).isLt; omega⟩
    ⟨(j 0).val % 80, by omega⟩
  invFun e := ix1 ⟨(e 0).val * 80 + (e 1).val, by
    have h0 : (e 0).val < 524288 := (e 0).isLt
    have h1 : (e 1).val < 80 := (e 1).isLt
    omega⟩
  left_inv j := by
    funext a
    match a with
    | ⟨0, _⟩ => exact Fin.ext (by show (j 0).val / 80 * 80 + (j 0).val % 80 = (j 0).val; omega)
  right_inv e := by
    have h1 : (e 1).val < 80 := (e 1).isLt
    funext a
    match a with
    | ⟨0, _⟩ => exact Fin.ext (by show ((e 0).val * 80 + (e 1).val) / 80 = (e 0).val; omega)
    | ⟨1, _⟩ => exact Fin.ext (by show ((e 0).val * 80 + (e 1).val) % 80 = (e 1).val; omega)

/-- The scatter-add of flat arrays that are row-major reshapes of two-dimensional ones (start indices b, updates u),
    read at i: the operand's element plus the sum, over the two-dimensional index set, of the updates whose start
    index reads i. -/
theorem addAt_flat_apply (wf : ScatterDims.WF ⟨1, ![10]⟩ ⟨2, ![41943040, 1]⟩ ⟨1, ![41943040]⟩ [] [0] [0] 1)
    (x : (⟨1, ![10]⟩ : Shape).Idx → EReal) (idx : IVec ⟨2, ![41943040, 1]⟩ 32)
    (upd : (⟨1, ![41943040]⟩ : Shape).Idx → EReal)
    (b : (⟨2, ![524288, 80]⟩ : Shape).Idx → BitVec 32) (u : (⟨2, ![524288, 80]⟩ : Shape).Idx → EReal)
    (hidx : ∀ j, idx (addAtIdx j) = b (flatEquiv j)) (hupd : ∀ j, upd j = u (flatEquiv j))
    (i : (⟨1, ![10]⟩ : Shape).Idx) :
    Ideal.hostScatterAdd (addAtDims 10 41943040 wf) x idx upd i
      = x i + ∑ e, if (b e).toInt = ((i 0).val : ℤ) then u e else 0 := by
  rw [addAt_apply]
  refine congrArg (fun t => x i + t) ?_
  exact Fintype.sum_equiv flatEquiv _ _ fun j => by rw [hidx, hupd]

end Cert.RefValue

end
-- ==== Proof.RefFlat.lean ====
/-
  The operands of the reference's scatter-add, read at the ideal instance. Its flat arrays are row-major reshapes of
  the per-element arrays: the start index of update j is the bin of the element j numbers, update j is that element's
  validity indicator, and the operand is zero.
-/
import proofs.«150911_j10273561772276_2_alg».proof.Proof.ReadP
import proofs.«150911_j10273561772276_2_alg».proof.Proof.Spec
import proofs.«150911_j10273561772276_2_alg».proof.Proof.RefWords
import proofs.«150911_j10273561772276_2_alg».proof.Proof.RefScatter
import proofs.«150911_j10273561772276_2_alg».proof.Proof.RefElem

noncomputable section

namespace Cert.RefValue

open Cert.ReferenceIdeal Cert.ReferenceIdeal.Gen Cert.ReferenceIdeal.ReadP Idealize.ShloMosaic
  Idealize.ShloMosaic.ValueIdx Cert.Spec
open scoped BigOperators

/-- The flat index of the reshaped bits is the row-major one. -/
theorem idx_v19_eq (j : S41943040.Idx) : idx_main_v19 j = flatEquiv j := by
  funext a
  match a with
  | ⟨0, _⟩ => rfl
  | ⟨1, _⟩ => rfl

/-- The flat index of the reshaped bins, through the added unit axis, is the row-major one. -/
theorem idx_v21_v23_eq (j : S41943040.Idx) : idx_main_v21 (idx_main_v23 (addAtIdx j)) = flatEquiv j := by
  funext a
  match a with
  | ⟨0, _⟩ => rfl
  | ⟨1, _⟩ => rfl

/-- The start index of update j is the bin of the element j numbers. -/
theorem v23_addAt (x0 : SE.Idx → EReal) (x1 : SE.Idx → BitVec 32) (j : S41943040.Idx) :
    val_main_v23 (F := Ideal) x0 x1 (addAtIdx j) = binR x0 x1 (flatEquiv j) := by
  rw [val_main_v23_apply, val_main_v21_apply, v18_apply, idx_v21_v23_eq]

/-- Update j is the validity indicator of the element j numbers. -/
theorem v20_flat (x2 : SE.Idx → EReal) (j : S41943040.Idx) :
    val_main_v20 (F := Ideal) x2 j = ind (0 < x2 (flatEquiv j)) := by
  rw [val_main_v20_apply, val_main_v19_apply, v2_apply, idx_v19_eq]
  exact toNat_cmp_ogt _ _

/-- The scatter's operand is zero everywhere. -/
theorem v22_apply (i : S10.Idx) : val_main_v22 (F := Ideal) i = 0 := by
  rw [val_main_v22_apply, val_main_cst_6_apply]
  exact Ideal.ofBits_zero_f32

/-- Keeping a value when a word reads k is multiplying it by the indicator of "the word is bin k's". -/
theorem ite_toInt_eq (b : BitVec 32) (k : Fin 10) (y : EReal) :
    (if b.toInt = (k.val : ℤ) then y else 0) = ind (b = bv k) * y := by
  by_cases h : b = bv k
  · rw [if_pos ((eq_bv_iff _ _).1 h), show ind (b = bv k) = 1 from if_pos h, one_mul]
  · rw [if_neg (fun hc => h ((eq_bv_iff _ _).2 hc)), show ind (b = bv k) = 0 from if_neg h, zero_mul]

end Cert.RefValue

end
-- ==== Proof.RefBinCounts.lean ====
/-
  The reference's bin counts, read at the ideal instance: the scatter-add of the validity indicators at the bins.
  At bin k it is the number of valid elements whose bin is k.
-/
import proofs.«150911_j10273561772276_2_alg».proof.Proof.ReadP
import proofs.«150911_j10273561772276_2_alg».proof.Proof.Spec
import proofs.«150911_j10273561772276_2_alg».proof.Proof.RefWords
import proofs.«150911_j10273561772276_2_alg».proof.Proof.RefScatter
import proofs.«150911_j10273561772276_2_alg».proof.Proof.RefElem
import proofs.«150911_j10273561772276_2_alg».proof.Proof.RefFlat

noncomputable section

namespace Cert.RefValue

open Cert.ReferenceIdeal Cert.ReferenceIdeal.Gen Cert.ReferenceIdeal.ReadP Idealize.ShloMosaic
  Idealize.ShloMosaic.ValueIdx Cert.Spec
open scoped BigOperators

/-- The program's scatter dimension numbers are those of a flat add-at. -/
theorem scatterDims_eq :
    scatter_S10_S41943040x1_S41943040_n_0_0_1 = addAtDims 10 41943040 scatter_S10_S41943040x1_S41943040_n_0_0_1_wf :=
  rfl

/-- The scatter-add stage is the ideal instance's scatter-add at those dimension numbers. -/
theorem v24_unfold (x0 : SE.Idx → EReal) (x1 : SE.Idx → BitVec 32) (x2 : SE.Idx → EReal) :
    val_main_v24 (F := Ideal) x0 x1 x2
      = Ideal.hostScatterAdd (addAtDims 10 41943040 scatter_S10_S41943040x1_S41943040_n_0_0_1_wf)
          (val_main_v22 (F := Ideal)) (val_main_v23 (F := Ideal) x0 x1) (val_main_v20 (F := Ideal) x2) := by
  rw [← scatterDims_eq]
  rfl

/-- The scatter-add at bin k is the number of valid elements whose bin is k. -/
theorem v24_apply (x0 : SE.Idx → EReal) (x1 : SE.Idx → BitVec 32) (x2 : SE.Idx → EReal) (k : Fin 10) :
    val_main_v24 (F := Ideal) x0 x1 x2 (ix1 k) = cntOf (binR x0 x1) x2 (bv k) := by
  rw [v24_unfold, addAt_flat_apply scatter_S10_S41943040x1_S41943040_n_0_0_1_wf (val_main_v22 (F := Ideal))
    (val_main_v23 (F := Ideal) x0 x1) (val_main_v20 (F := Ideal) x2) (binR x0 x1) (fun e => ind (0 < x2 e))
    (v23_addAt x0 x1) (v20_flat x2) (ix1 k), v22_apply, zero_add]
  exact Finset.sum_congr rfl fun e _ => ite_toInt_eq (binR x0 x1 e) k (ind (0 < x2 e))

end Cert.RefValue

end
-- ==== Proof.RefBinWeights.lean ====
/-
  The reference's bin weights, read at the ideal instance: the bit "bin k holds a valid element", the number of
  such bins (a 32-bit sum of ten bits, read signed, as a real, at least 1) and the weight of each bin.
-/
import proofs.«150911_j10273561772276_2_alg».proof.Proof.ReadP
import proofs.«150911_j10273561772276_2_alg».proof.Proof.Spec
import proofs.«150911_j10273561772276_2_alg».proof.Proof.RefWords
import proofs.«150911_j10273561772276_2_alg».proof.Proof.RefIntSum
import proofs.«150911_j10273561772276_2_alg».proof.Proof.RefElem
import proofs.«150911_j10273561772276_2_alg».proof.Proof.RefTotal
import proofs.«150911_j10273561772276_2_alg».proof.Proof.RefFlat
import proofs.«150911_j10273561772276_2_alg».proof.Proof.RefBinCounts

noncomputable section

namespace Cert.RefValue

open Cert.ReferenceIdeal Cert.ReferenceIdeal.Gen Cert.ReferenceIdeal.ReadP Idealize.ShloMosaic
  Idealize.ShloMosaic.ValueIdx Cert.Spec
open scoped BigOperators

/-- The bit "bin k is not empty". -/
theorem v26_apply (x0 : SE.Idx → EReal) (x1 : SE.Idx → BitVec 32) (x2 : SE.Idx → EReal) (k : Fin 10) :
    val_main_v26 (F := Ideal) x0 x1 x2 (ix1 k) = Ideal.cmp .ogt (cntOf (binR x0 x1) x2 (bv k)) 0 := by
  rw [val_main_v26_apply, val_main_v25_apply, val_main_cst_7_apply, v24_apply]
  show Ideal.cmp .ogt _ (Ideal.ofBits .f32 0x00000000#32) = _
  rw [Ideal.ofBits_zero_f32]

/-- There are ten bins, fewer than 2^31. -/
theorem card_S10_lt : Fintype.card (⟨1, ![10]⟩ : Shape).Idx < 2 ^ 31 := by
  rw [card_idx1]; norm_num

/-- The sum of those bits' indicators is the number of non-empty bins. -/
theorem sum_v26_indicator (x0 : SE.Idx → EReal) (x1 : SE.Idx → BitVec 32) (x2 : SE.Idx → EReal) :
    ∑ i : S10.Idx, (if val_main_v26 (F := Ideal) x0 x1 x2 i = 1#1 then (1 : EReal) else 0)
      = ∑ k : Fin 10, ind (0 < cntOf (binR x0 x1) x2 (bv k)) := by
  rw [sum_idx1]
  exact Finset.sum_congr rfl fun k _ => by rw [v26_apply, ite_cmp_ogt]

/-- The integer sum of the widened bits, read signed and as a real. -/
theorem v28_toInt (x0 : SE.Idx → EReal) (x1 : SE.Idx → BitVec 32) (x2 : SE.Idx → EReal) (i : S_.Idx) :
    (((val_main_v28 (F := Ideal) x0 x1 x2 i).toInt : ℝ) : EReal)
      = ∑ k : Fin 10, ind (0 < cntOf (binR x0 x1) x2 (bv k)) := by
  rw [← sum_v26_indicator]
  exact reduce_addi_bits reducesTo_S10_S_d0 h_S_ (val_main_v26 (F := Ideal) x0 x1 x2) (val_main_c_8 (F := Ideal))
    (fun _ => rfl) card_S10_lt i

/-- The number of non-empty bins, at least 1. -/
theorem v30_apply (x0 : SE.Idx → EReal) (x1 : SE.Idx → BitVec 32) (x2 : SE.Idx → EReal) (i : S_.Idx) :
    val_main_v30 (F := Ideal) x0 x1 x2 i = nne (cntOf (binR x0 x1) x2) := by
  rw [val_main_v30_apply, val_main_v29_apply, val_main_cst_9_apply]
  show max (((val_main_v28 (F := Ideal) x0 x1 x2 i).toInt : ℝ) : EReal) (Ideal.ofBits .f32 0x3F800000#32) = _
  rw [Ideal.ofBits_one_f32, v28_toInt]
  rfl

/-- The weight of bin k. -/
theorem v39_apply (x0 : SE.Idx → EReal) (x1 : SE.Idx → BitVec 32) (x2 : SE.Idx → EReal) (k : Fin 10) :
    val_main_v39 (F := Ideal) x0 x1 x2 (ix1 k) = pbw (cntOf (binR x0 x1) x2) (totR x2) (bv k) := by
  rw [val_main_v39_apply, val_main_v38_apply, v30_apply, val_main_v37_apply, val_main_call1_v1_apply,
    val_main_call1_v0_apply, val_main_cst_12_apply, val_main_v36_apply, val_main_v35_apply, v6_apply,
    val_main_v34_apply, val_main_v33_apply, val_main_cst_11_apply, val_main_v32_apply, val_main_v31_apply,
    val_main_cst_10_apply, v24_apply]
  show Ideal.div (Scalar.select (Ideal.cmp .ogt (cntOf (binR x0 x1) x2 (bv k)) (Ideal.ofBits .f32 0x00000000#32))
      (Ideal.div (totR x2) (max (cntOf (binR x0 x1) x2 (bv k)) (Ideal.ofBits .f32 0x3F800000#32)))
      (Ideal.ofBits .f32 0x00000000#32)) (nne (cntOf (binR x0 x1) x2)) = _
  rw [Ideal.ofBits_zero_f32, Ideal.ofBits_one_f32, select_cmp_ogt]
  rfl

end Cert.RefValue

end
-- ==== Proof.RefGather.lean ====
/-
  The reference's gather of the bin weights, read at one element. The start index of element e is its bin, which lies
  in 0 … 9: the "negative index + 10" wrap leaves it as it is and the gather's clamp does not move it, so the element
  reads the weight of its own bin; an element that is not valid gets 0.
-/
import proofs.«150911_j10273561772276_2_alg».proof.Proof.ReadP
import proofs.«150911_j10273561772276_2_alg».proof.Proof.Spec
import proofs.«150911_j10273561772276_2_alg».proof.Proof.RefWords
import proofs.«150911_j10273561772276_2_alg».proof.Proof.RefElem
import proofs.«150911_j10273561772276_2_alg».proof.Proof.RefTotal
import proofs.«150911_j10273561772276_2_alg».proof.Proof.RefBinCounts
import proofs.«150911_j10273561772276_2_alg».proof.Proof.RefBinWeights

noncomputable section

namespace Cert.RefValue

open Cert.ReferenceIdeal Cert.ReferenceIdeal.Gen Cert.ReferenceIdeal.ReadP Idealize.ShloMosaic
  Idealize.ShloMosaic.ValueIdx Cert.Spec
open scoped BigOperators

variable (x0 : SE.Idx → EReal) (x1 : SE.Idx → BitVec 32) (x2 : SE.Idx → EReal)

/-- A bin, read signed, lies in 0 … 9. -/
theorem binR_range (e : SE.Idx) : 0 ≤ (binR x0 x1 e).toInt ∧ (binR x0 x1 e).toInt ≤ 9 := by
  unfold binR binOf
  exact clip_range _

/-- A word that is not negative fails the signed comparison with 0. -/
theorem cmpi_slt_zero_of_nonneg (b : BitVec 32) (h : 0 ≤ b.toInt) : IntOp.cmpi .slt b 0#32 = 0#1 := by
  have h0 : (0#32 : BitVec 32).toInt = 0 := by decide
  have hs : b.slt 0#32 = false := by
    simp only [BitVec.slt, decide_eq_false_iff_not]
    omega
  show BitVec.ofBool (b.slt 0#32) = 0#1
  rw [hs]
  rfl

/-- The wrapped start index is the bin itself. -/
theorem v44_apply (e : SE.Idx) : val_main_v44 (F := Ideal) x0 x1 e = binR x0 x1 e := by
  rw [val_main_v44_apply, val_main_v41_apply, val_main_v40_apply, val_main_c_13_apply, v18_apply,
    cmpi_slt_zero_of_nonneg _ (binR_range x0 x1 e).1, select_zero]

/-- The start index read by element e, through the added unit axis, is its bin. -/
theorem v45_take (e : SE.Idx) : val_main_v45 (F := Ideal) x0 x1 (takeIdx e) = binR x0 x1 e := by
  rw [val_main_v45_apply, v44_apply]
  refine congrArg (binR x0 x1) ?_
  funext a
  match a with
  | ⟨0, _⟩ => rfl
  | ⟨1, _⟩ => rfl

/-- The program's gather dimension numbers are those of a flat take. -/
theorem gatherDims_eq :
    gather_S10_S524288x80x1_S524288x80_n_0_n_n_0_2_1
      = takeDims 10 524288 80 gather_S10_S524288x80x1_S524288x80_n_0_n_n_0_2_1_wf :=
  rfl

/-- The gather stage is the gather at those dimension numbers. -/
theorem v46_unfold :
    val_main_v46 (F := Ideal) x0 x1 x2
      = Host.gather (takeDims 10 524288 80 gather_S10_S524288x80x1_S524288x80_n_0_n_n_0_2_1_wf)
          (val_main_v39 (F := Ideal) x0 x1 x2) (val_main_v45 (F := Ideal) x0 x1) := by
  rw [← gatherDims_eq]
  rfl

/-- THE GATHER AT e: the weight of e's own bin. -/
theorem v46_apply (e : SE.Idx) :
    val_main_v46 (F := Ideal) x0 x1 x2 e = pbw (cntOf (binR x0 x1) x2) (totR x2) (binR x0 x1 e) := by
  rw [v46_unfold, gather_take_apply (by norm_num)]
  refine (v39_apply x0 x1 x2 _).trans ?_
  refine congrArg (pbw (cntOf (binR x0 x1) x2) (totR x2)) ?_
  show BitVec.ofNat 32 (min (val_main_v45 (F := Ideal) x0 x1 (takeIdx e)).toInt.toNat (10 - 1)) = _
  rw [v45_take]
  exact bv_of_range _ (binR_range x0 x1 e).1 (binR_range x0 x1 e).2

/-- The weight an element carries: its bin's weight when it is valid, 0 otherwise. -/
theorem v47_apply (e : SE.Idx) :
    val_main_v47 (F := Ideal) x0 x1 x2 e
      = if 0 < x2 e then pbw (cntOf (binR x0 x1) x2) (totR x2) (binR x0 x1 e) else 0 := by
  rw [val_main_v47_apply, v2_apply, v46_apply, val_main_call2_v1_apply, val_main_call2_v0_apply,
    val_main_cst_15_apply, select_cmp_ogt]
  show (if 0 < x2 e then _ else Ideal.ofBits .f32 0x00000000#32) = _
  rw [Ideal.ofBits_zero_f32]

end Cert.RefValue

end
-- ==== Proof.RefValue.lean ====
/-
  The reference's result, read at the ideal instance, is Spec's element-by-element form of the loss: the sum, over
  all elements, of cross entropy · carried weight · w, from the initial 0, divided by the total, times the constant 1.
-/
import proofs.«150911_j10273561772276_2_alg».proof.Proof.ReadP
import proofs.«150911_j10273561772276_2_alg».proof.Proof.Spec
import proofs.«150911_j10273561772276_2_alg».proof.Proof.RefWords
import proofs.«150911_j10273561772276_2_alg».proof.Proof.RefElem
import proofs.«150911_j10273561772276_2_alg».proof.Proof.RefTotal
import proofs.«150911_j10273561772276_2_alg».proof.Proof.RefBinCounts
import proofs.«150911_j10273561772276_2_alg».proof.Proof.RefBinWeights
import proofs.«150911_j10273561772276_2_alg».proof.Proof.RefGather

noncomputable section

namespace Cert.RefValue

open Cert.ReferenceIdeal Cert.ReferenceIdeal.Gen Cert.ReferenceIdeal.ReadP Idealize.ShloMosaic
  Idealize.ShloMosaic.ValueIdx Cert.Spec
open scoped BigOperators

/-- One summand of the loss: cross entropy, times the weight the element carries, times w. -/
theorem v58_apply (x0 : SE.Idx → EReal) (x1 : SE.Idx → BitVec 32) (x2 : SE.Idx → EReal) (e : SE.Idx) :
    val_main_v58 (F := Ideal) x0 x1 x2 e
      = (bceR (x0 e) (x1 e) * (if 0 < x2 e then pbw (cntOf (binR x0 x1) x2) (totR x2) (binR x0 x1 e) else 0)) * x2 e := by
  rw [val_main_v58_apply, val_main_v57_apply, v56_apply, v47_apply]
  rfl

/-- The reference's result is the loss, element by element. -/
theorem result_eq (x0 : Cert.Spec.SE.Idx → EReal) (x1 : Cert.Spec.SE.Idx → BitVec 32) (x2 : Cert.Spec.SE.Idx → EReal) :
    Cert.ReferenceIdeal.ReadP.val_main_v61 (F := Ideal) x0 x1 x2 = fun _ => Cert.Spec.Rform x0 x1 x2 := by
  funext i
  rw [val_main_v61_apply, val_main_cst_18_apply, val_main_v60_apply, v6_apply, val_main_v59_apply,
    val_main_cst_17_apply]
  show Ideal.div (Ideal.ofBits .f32 0x00000000#32 + ∑ j : S524288x80.Idx, val_main_v58 (F := Ideal) x0 x1 x2 j)
    (totR x2) * Ideal.ofBits .f32 0x3F800000#32 = _
  rw [Ideal.ofBits_zero_f32, Ideal.ofBits_one_f32, zero_add]
  unfold Rform
  refine congrArg (fun t => Ideal.div t (totR x2) * 1) ?_
  exact Finset.sum_congr rfl fun e _ => v58_apply x0 x1 x2 e

end Cert.RefValue

end
-- ==== Proof.BridgeElem.lean ====
/-
  Element-wise facts joining the two spellings of the loss: at a real argument both sigmoids are the real number
  1 / (1 + exp (−x)), both cross entropies are the same real number, the bin of an element is one of the ten
  words 0 … 9, and the ten words are distinct.
-/
import Mathlib
import Idealize.ShloMosaic.Lib.WordArith
import proofs.«150911_j10273561772276_2_alg».proof.Proof.Spec

noncomputable section

namespace Cert.Spec

open Idealize.ShloMosaic

/-- The larger of two reals, read on the extended reals. -/
theorem coe_max (a b : ℝ) : ((max a b : ℝ) : EReal) = max (a : EReal) (b : EReal) :=
  EReal.coe_strictMono.monotone.map_max

/-- The absolute value of a real, on the extended reals. -/
theorem ab_coe (r : ℝ) : ab (r : EReal) = ((|r| : ℝ) : EReal) := by
  unfold ab
  rw [← EReal.coe_neg, ← coe_max, abs_eq_max_neg]

/-- The exponent 0 − |x| at a real. -/
theorem zero_sub_ab_coe (r : ℝ) : (0 : EReal) - ab (r : EReal) = ((-|r| : ℝ) : EReal) := by
  rw [ab_coe, zero_sub, EReal.coe_neg]

/-- The quotient by a nonzero real is a real. -/
theorem div_coe_coe (a : ℝ) {b : ℝ} (hb : b ≠ 0) : Ideal.div (a : EReal) (b : EReal) = ((a / b : ℝ) : EReal) := by
  rw [Ideal.div_coe hb, ← EReal.coe_mul, mul_one_div]

/-- The sigmoid spelled 1 / (1 + exp (−x)) at a real. -/
theorem sigR_coe (r : ℝ) : sigR (r : EReal) = (((1 + Real.exp (-r))⁻¹ : ℝ) : EReal) := by
  show Ideal.logistic (r : EReal) = _
  exact Ideal.logistic_coe r

/-- The sigmoid spelled through exp (0 − |x|) at a real: the same real number. -/
theorem sigK_coe (r : ℝ) : sigK (r : EReal) = (((1 + Real.exp (-r))⁻¹ : ℝ) : EReal) := by
  unfold sigK
  rw [zero_sub_ab_coe, Ideal.exp_coe]
  have hpos : (1 + Real.exp (-|r|)) ≠ 0 := by positivity
  have h1 : (1 : EReal) + ((Real.exp (-|r|) : ℝ) : EReal) = ((1 + Real.exp (-|r|) : ℝ) : EReal) := by
    rw [EReal.coe_add, EReal.coe_one]
  rw [h1]
  by_cases h : 0 ≤ r
  · have h' : (0 : EReal) ≤ (r : EReal) := by exact_mod_cast h
    rw [if_pos h', ← EReal.coe_one, div_coe_coe 1 hpos, abs_of_nonneg h, one_div]
  · have h' : ¬ (0 : EReal) ≤ (r : EReal) := by
      intro h''; exact h (by exact_mod_cast h'')
    rw [if_neg h', div_coe_coe _ hpos]
    have hneg : r < 0 := not_le.mp h
    rw [abs_of_neg hneg, neg_neg, EReal.coe_eq_coe_iff, Real.exp_neg]
    have he : Real.exp r ≠ 0 := (Real.exp_pos r).ne'
    have he' : 1 + Real.exp r ≠ 0 := by positivity
    field_simp
    ring

/-- At a real argument the two sigmoids agree. -/
theorem sigK_eq_sigR_coe (r : ℝ) : sigK (r : EReal) = sigR (r : EReal) := by
  rw [sigK_coe, sigR_coe]

/-- The two spellings of the cross entropy agree everywhere: 0 − a is −a. -/
theorem bceK_eq_bceR (x : EReal) (t : BitVec 32) : bceK x t = bceR x t := by
  unfold bceK bceR
  rw [zero_sub]

/-- The cross entropy at a real argument, as a real number. -/
def bceReal (r : ℝ) (t : BitVec 32) : ℝ := max r 0 - r * (t.toInt : ℝ) + Real.log (1 + Real.exp (-|r|))

/-- The cross entropy at a real argument is that real number. -/
theorem bceK_coe (r : ℝ) (t : BitVec 32) : bceK (r : EReal) t = ((bceReal r t : ℝ) : EReal) := by
  unfold bceK bceReal Ideal.log1p tgt
  rw [zero_sub_ab_coe, Ideal.exp_coe]
  have hpos : ¬ (1 + Real.exp (-|r|)) ≤ 0 := by
    have : 0 < 1 + Real.exp (-|r|) := by positivity
    exact not_le.mpr this
  have h1 : (1 : EReal) + ((Real.exp (-|r|) : ℝ) : EReal) = ((1 + Real.exp (-|r|) : ℝ) : EReal) := by
    rw [EReal.coe_add, EReal.coe_one]
  rw [h1, Ideal.log_coe, if_neg hpos, ← EReal.coe_zero, ← coe_max, ← EReal.coe_mul, ← EReal.coe_sub,
    ← EReal.coe_add]

/-- The ten bin words are distinct. -/
theorem bv_injective : Function.Injective bv := by
  intro a b h
  have h' := congrArg BitVec.toNat h
  unfold bv at h'
  rw [BitVec.toNat_ofNat, BitVec.toNat_ofNat] at h'
  have ha := a.isLt
  have hb := b.isLt
  apply Fin.ext
  omega

/-- The bin of an element is one of the ten words 0 … 9: a signed maximum with 0 is nonnegative, and the signed
    minimum of 9 and a nonnegative word is at most 9. -/
theorem binOf_range (s : EReal) (t : BitVec 32) : ∃ k : Fin 10, binOf s t = bv k := by
  unfold binOf
  generalize Ideal.fptosi 32 (ab (s - tgt t) * 10) = z
  have hm : (IntOp.maxsi 0#32 z).toNat < 2 ^ 31 := by
    have := WordArith.two_mul_toNat_maxsi_zero_lt z
    unfold Scalar.maxsi at this
    omega
  have h9 : (9#32 : BitVec 32).toNat = 9 := by decide
  have hmin := WordArith.toNat_minsi_of_lt 9#32 (IntOp.maxsi 0#32 z) (by rw [h9]; norm_num) hm
  rw [h9] at hmin
  have hle : (IntOp.minsi 9#32 (IntOp.maxsi 0#32 z)).toNat < 10 := by
    rw [hmin]; omega
  refine ⟨⟨_, hle⟩, ?_⟩
  apply BitVec.eq_of_toNat_eq
  unfold bv
  rw [BitVec.toNat_ofNat]
  show _ = (IntOp.minsi 9#32 (IntOp.maxsi 0#32 z)).toNat % 2 ^ 32
  omega

end Cert.Spec

end
-- ==== Proof.BridgeSum.lean ====
/-
  The algebra of the bin-by-bin and the element-by-element sums, over an arbitrary finite index type.

  Every element lies in exactly one of the ten bins, so a sum over the bins of the bin's indicator times a term
  collapses to the term at the element's own bin. On the reals, where multiplication distributes over finite sums,
  this turns the bin-by-bin weighted sum into the element-by-element one; the identity is then carried to the
  extended reals for real-valued data, the extended-real expressions being coercions of the real ones.
-/
import Mathlib
import proofs.«150911_j10273561772276_2_alg».proof.Proof.BridgeElem

noncomputable section

namespace Cert.Spec

open Idealize.ShloMosaic
open scoped BigOperators

variable {ι : Type*} [Fintype ι]

/-- The indicator of a proposition, as a real. -/
def indR (p : Prop) [Decidable p] : ℝ := if p then 1 else 0

/-- The extended-real indicator is the coercion of the real one. -/
theorem ind_coe (p : Prop) [Decidable p] : ind p = ((indR p : ℝ) : EReal) := by
  unfold ind indR
  by_cases h : p
  · rw [if_pos h, if_pos h, EReal.coe_one]
  · rw [if_neg h, if_neg h, EReal.coe_zero]

/-- Positivity of a real does not depend on where it is read. -/
theorem ind_pos_coe (r : ℝ) : ind (0 < (r : EReal)) = ((indR (0 < r) : ℝ) : EReal) := by
  unfold ind indR
  by_cases h : 0 < r
  · have h' : (0 : EReal) < (r : EReal) := EReal.coe_pos.mpr h
    rw [if_pos h, if_pos h', EReal.coe_one]
  · have h' : ¬ (0 : EReal) < (r : EReal) := fun h'' => h (EReal.coe_pos.mp h'')
    rw [if_neg h, if_neg h', EReal.coe_zero]

/-- The coercion of a finite sum of reals is the sum of the coercions. -/
theorem coe_finsum {κ : Type*} (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Each element is in exactly one bin (reals): summing over the bins the bin's indicator times a term leaves the
    term at the element's bin. -/
theorem collapse_real (bin : ι → BitVec 32) (hbin : ∀ e, ∃ k : Fin 10, bin e = bv k) (f : BitVec 32 → ι → ℝ) :
    ∑ k : Fin 10, ∑ e : ι, indR (bin e = bv k) * f (bv k) e = ∑ e : ι, f (bin e) e := by
  rw [Finset.sum_comm]
  apply Finset.sum_congr rfl
  intro e _
  obtain ⟨k0, hk0⟩ := hbin e
  rw [Finset.sum_eq_single k0]
  · rw [hk0, indR, if_pos rfl, one_mul]
  · intro k _ hne
    have hne' : ¬ bin e = bv k := by
      rw [hk0]; intro h; exact hne (bv_injective h).symm
    rw [indR, if_neg hne', zero_mul]
  · intro h; exact absurd (Finset.mem_univ k0) h

/-- Each element is in exactly one bin (extended reals; only 0 · a = 0 and 1 · a = a are used). -/
theorem collapse_ereal (bin : ι → BitVec 32) (hbin : ∀ e, ∃ k : Fin 10, bin e = bv k) (f : BitVec 32 → ι → EReal) :
    ∑ k : Fin 10, ∑ e : ι, ind (bin e = bv k) * f (bv k) e = ∑ e : ι, f (bin e) e := by
  rw [Finset.sum_comm]
  apply Finset.sum_congr rfl
  intro e _
  obtain ⟨k0, hk0⟩ := hbin e
  rw [Finset.sum_eq_single k0]
  · rw [hk0, ind, if_pos rfl, one_mul]
  · intro k _ hne
    have hne' : ¬ bin e = bv k := by
      rw [hk0]; intro h; exact hne (bv_injective h).symm
    rw [ind, if_neg hne', zero_mul]
  · intro h; exact absurd (Finset.mem_univ k0) h

/-- The bin-by-bin weighted sum is the element-by-element one, on the reals. -/
theorem binsum_real (bin : ι → BitVec 32) (hbin : ∀ e, ∃ k : Fin 10, bin e = bv k) (P : BitVec 32 → ℝ) (c w : ι → ℝ) :
    ∑ k : Fin 10, P (bv k) * ∑ e : ι, indR (bin e = bv k) * ((c e * w e) * indR (0 < w e))
      = ∑ e : ι, (c e * (if 0 < w e then P (bin e) else 0)) * w e := by
  have h1 : ∀ k : Fin 10, P (bv k) * ∑ e : ι, indR (bin e = bv k) * ((c e * w e) * indR (0 < w e))
      = ∑ e : ι, indR (bin e = bv k) * (P (bv k) * ((c e * w e) * indR (0 < w e))) := by
    intro k
    rw [Finset.mul_sum]
    apply Finset.sum_congr rfl
    intro e _
    ring
  rw [Finset.sum_congr rfl (fun k _ => h1 k)]
  rw [collapse_real bin hbin (fun b e => P b * ((c e * w e) * indR (0 < w e)))]
  apply Finset.sum_congr rfl
  intro e _
  unfold indR
  by_cases h : 0 < w e
  · rw [if_pos h, if_pos h]; ring
  · rw [if_neg h, if_neg h]; ring

/-- The bin-by-bin weighted sum is the element-by-element one, on the extended reals, for real data. -/
theorem binsum_ereal (bin : ι → BitVec 32) (hbin : ∀ e, ∃ k : Fin 10, bin e = bv k) (P : BitVec 32 → ℝ) (c w : ι → ℝ) :
    ∑ k : Fin 10, (P (bv k) : EReal) * ∑ e : ι, ind (bin e = bv k) * (((c e : EReal) * (w e : EReal)) * ind (0 < (w e : EReal)))
      = ∑ e : ι, ((c e : EReal) * (if 0 < (w e : EReal) then (P (bin e) : EReal) else 0)) * (w e : EReal) := by
  have hL : ∀ k : Fin 10,
      (P (bv k) : EReal) * ∑ e : ι, ind (bin e = bv k) * (((c e : EReal) * (w e : EReal)) * ind (0 < (w e : EReal)))
        = ((P (bv k) * ∑ e : ι, indR (bin e = bv k) * ((c e * w e) * indR (0 < w e)) : ℝ) : EReal) := by
    intro k
    rw [EReal.coe_mul, coe_finsum]
    congr 1
    apply Finset.sum_congr rfl
    intro e _
    rw [EReal.coe_mul, EReal.coe_mul, EReal.coe_mul, ind_coe, ind_pos_coe]
  have hR : ∀ e : ι,
      ((c e : EReal) * (if 0 < (w e : EReal) then (P (bin e) : EReal) else 0)) * (w e : EReal)
        = (((c e * (if 0 < w e then P (bin e) else 0)) * w e : ℝ) : EReal) := by
    intro e
    rw [EReal.coe_mul, EReal.coe_mul]
    by_cases h : 0 < w e
    · have h' : (0 : EReal) < (w e : EReal) := EReal.coe_pos.mpr h
      rw [if_pos h, if_pos h']
    · have h' : ¬ (0 : EReal) < (w e : EReal) := fun h'' => h (EReal.coe_pos.mp h'')
      rw [if_neg h, if_neg h', EReal.coe_zero]
  rw [Finset.sum_congr rfl (fun k _ => hL k), Finset.sum_congr rfl (fun e _ => hR e), ← coe_finsum, ← coe_finsum,
    binsum_real bin hbin P c w]

end Cert.Spec

end
-- ==== Proof.Bridge.lean ====
/-
  The two spellings of the loss agree when the predictions and the weights are finite.

  Every quantity entering the loss is then a real number: indicators are 0 or 1, counts are finite sums of
  indicators, the totals and the number of nonempty bins are maxima of such sums with 1, a quotient of reals by a
  real at least 1 is real, and the cross entropy at a real prediction is real. The two sigmoids agree at a real
  prediction, so both spellings bin the elements alike; every element lies in exactly one of the ten bins, so the
  sum of the bins' counts is the number of valid elements; and, all terms being real, the bin-by-bin weighted sum is
  the element-by-element one.
-/
import Mathlib
import proofs.«150911_j10273561772276_2_alg».proof.Proof.BridgeSum

noncomputable section

namespace Cert.Spec

open Idealize.ShloMosaic
open scoped BigOperators

/-- An extended real that is a real number. -/
def IsR (a : EReal) : Prop := ∃ r : ℝ, a = (r : EReal)

theorem IsR.zero : IsR 0 := ⟨0, EReal.coe_zero.symm⟩

theorem IsR.one : IsR 1 := ⟨1, EReal.coe_one.symm⟩

theorem IsR.ind (p : Prop) [Decidable p] : IsR (ind p) := ⟨indR p, ind_coe p⟩

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.max {a b : EReal} (ha : IsR a) (hb : IsR b) : IsR (max a b) := by
  obtain ⟨r, rfl⟩ := ha
  obtain ⟨s, rfl⟩ := hb
  exact ⟨Max.max r s, (coe_max r s).symm⟩

theorem IsR.sum {κ : Type*} (s : Finset κ) (f : κ → EReal) (h : ∀ i, IsR (f i)) : IsR (∑ i ∈ s, f i) := by
  choose g hg using h
  refine ⟨∑ i ∈ s, g i, ?_⟩
  rw [coe_finsum]
  exact Finset.sum_congr rfl (fun i _ => hg i)

theorem IsR.ite (p : Prop) [Decidable p] {a b : EReal} (ha : IsR a) (hb : IsR b) : IsR (if p then a else b) := by
  by_cases h : p
  · rw [if_pos h]; exact ha
  · rw [if_neg h]; exact hb

/-- The quotient of a real by a real that is at least 1 is a real. -/
theorem IsR.div {a b : EReal} (ha : IsR a) (hb : IsR b) (h1 : 1 ≤ b) : IsR (Ideal.div a b) := by
  obtain ⟨r, rfl⟩ := ha
  obtain ⟨s, rfl⟩ := hb
  have h1' : (1 : ℝ) ≤ s := by exact_mod_cast h1
  have hs : s ≠ 0 := by linarith
  exact ⟨r / s, div_coe_coe r hs⟩

/-- A count is a real. -/
theorem cntOf_isR (bin : SE.Idx → BitVec 32) (w : SE.Idx → EReal) (b : BitVec 32) : IsR (cntOf bin w b) :=
  IsR.sum _ _ (fun _ => (IsR.ind _).mul (IsR.ind _))

/-- The number of valid elements, at least 1, is a real. -/
theorem totR_isR (w : SE.Idx → EReal) : IsR (totR w) :=
  (IsR.sum _ _ (fun _ => IsR.ind _)).max IsR.one

/-- The number of nonempty bins, at least 1, is a real. -/
theorem nne_isR (cnt : BitVec 32 → EReal) : IsR (nne cnt) :=
  (IsR.sum _ _ (fun _ => IsR.ind _)).max IsR.one

/-- A bin's weight is a real, for real counts and a real total. -/
theorem pbw_isR (cnt : BitVec 32 → EReal) (tot : EReal) (hc : ∀ b, IsR (cnt b)) (ht : IsR tot) (b : BitVec 32) :
    IsR (pbw cnt tot b) :=
  IsR.div (IsR.ite _ (IsR.div ht ((hc b).max IsR.one) (le_max_right _ _)) IsR.zero) (nne_isR cnt) (le_max_right _ _)

/-- The bins' counts add up to the number of valid elements. -/
theorem count_bins (bin : SE.Idx → BitVec 32) (hbin : ∀ e, ∃ k : Fin 10, bin e = bv k) (w : SE.Idx → EReal) :
    ∑ k : Fin 10, cntOf bin w (bv k) = ∑ e : SE.Idx, ind (0 < w e) := by
  unfold cntOf
  exact collapse_ereal bin hbin (fun _ e => ind (0 < w e))

/-- The two spellings of the loss agree at finite predictions and weights. -/
theorem Kform_eq_Rform (x : Cert.Spec.SE.Idx → EReal) (tg : Cert.Spec.SE.Idx → BitVec 32) (w : Cert.Spec.SE.Idx → EReal)
    (hx : ∀ e, ∃ r : ℝ, x e = (r : EReal)) (hw : ∀ e, ∃ r : ℝ, w e = (r : EReal)) :
    Cert.Spec.Kform x tg w = Cert.Spec.Rform x tg w := by
  choose xr hxr using hx
  choose wr hwr using hw
  have hrange : ∀ e, ∃ k : Fin 10, binK x tg e = bv k := fun e => binOf_range _ _
  have hbin : binR x tg = binK x tg := by
    funext e
    unfold binR binK
    rw [hxr e, sigK_eq_sigR_coe]
  have htot : totK x tg w = totR w := by
    unfold totK totR
    rw [count_bins (binK x tg) hrange w]
  obtain ⟨Pr, hPr⟩ : ∃ Pr : BitVec 32 → ℝ, ∀ b, pbw (cntOf (binK x tg) w) (totR w) b = (Pr b : EReal) := by
    have h : ∀ b, IsR (pbw (cntOf (binK x tg) w) (totR w) b) :=
      fun b => pbw_isR _ _ (fun b => cntOf_isR _ _ b) (totR_isR w) b
    choose Pr hPr using h
    exact ⟨Pr, hPr⟩
  have key : ∑ k : Fin 10, pbw (cntOf (binK x tg) w) (totR w) (bv k) * sumOf x tg w (bv k)
      = ∑ e : SE.Idx, (bceR (x e) (tg e)
          * (if 0 < w e then pbw (cntOf (binK x tg) w) (totR w) (binK x tg e) else 0)) * w e := by
    have hs : ∀ k : Fin 10, pbw (cntOf (binK x tg) w) (totR w) (bv k) * sumOf x tg w (bv k)
        = (Pr (bv k) : EReal) * ∑ e : SE.Idx, ind (binK x tg e = bv k)
            * ((((bceReal (xr e) (tg e) : ℝ) : EReal) * (wr e : EReal)) * ind (0 < (wr e : EReal))) := by
      intro k
      rw [hPr]
      unfold sumOf
      refine congrArg (fun s => (Pr (bv k) : EReal) * s) (Finset.sum_congr rfl ?_)
      intro e _
      rw [hwr e, hxr e, bceK_coe]
    have hr : ∀ e : SE.Idx, (bceR (x e) (tg e)
          * (if 0 < w e then pbw (cntOf (binK x tg) w) (totR w) (binK x tg e) else 0)) * w e
        = (((bceReal (xr e) (tg e) : ℝ) : EReal)
          * (if 0 < (wr e : EReal) then (Pr (binK x tg e) : EReal) else 0)) * (wr e : EReal) := by
      intro e
      rw [hPr, ← bceK_eq_bceR, hwr e, hxr e, bceK_coe]
    rw [Finset.sum_congr rfl (fun k _ => hs k), Finset.sum_congr rfl (fun e _ => hr e)]
    exact binsum_ereal (binK x tg) hrange Pr (fun e => bceReal (xr e) (tg e)) wr
  unfold Kform Rform
  rw [htot, hbin, key]

end Cert.Spec

end
-- ==== Proof.PreDecode.lean ====
/-
  The printed precondition, read back: both float arguments are finite.

  The precondition is the conjunction of two "all entries satisfy |a| < +∞" tests, one over the predictions and one
  over the weights. A conjunction of one-bit words is 1 only when both are; an "all" that came out 1 met a 1 at
  every index; and an extended real whose absolute value is below +∞ is neither infinity, hence a real number.
-/
import Idealize.ShloMosaic.Lib.ReduceAll
import Idealize.ShloMosaic.Lib.ValueIdx
import Idealize.ShloMosaic.PureOps.Ideal
import proofs.«150911_j10273561772276_2_alg».proof.Pre_finite_inputs

noncomputable section

namespace Cert.PreDecode

open Idealize.ShloMosaic

/-- The rank-0 shape has a single index. -/
instance : Subsingleton Cert.Pre_finite_inputs.S_.Idx := ⟨fun _ _ => funext fun d => d.elim0⟩

/-- An extended real whose absolute value compares below the pattern of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the printed precondition the predictions and the weights are real numbers. -/
theorem finite_of_pre [Cert.Pre_finite_inputs.Facts]
    (x0 : FVec Ideal Cert.Pre_finite_inputs.S524288x80 .f32) (x1 : IVec Cert.Pre_finite_inputs.S524288x80 32) (x2 : FVec Ideal Cert.Pre_finite_inputs.S524288x80 .f32)
    (h : Cert.Pre_finite_inputs.fn (F := Ideal) x0 x1 x2 = fun _ => 1#1) :
    (∀ e, ∃ r : ℝ, x0 e = (r : EReal)) ∧ (∀ e, ∃ r : ℝ, x2 e = (r : EReal)) := by
  have e := congrFun h ValueIdx.ix0
  dsimp only [Cert.Pre_finite_inputs.fn] at e
  obtain ⟨e0, e2⟩ := IntOp.andi_eq_one.1 e
  refine ⟨fun i => ?_, fun i => ?_⟩
  · have hi := Host.reduce_andi_all _ _ _ _ _ e0 i
    exact real_of_abs_lt_inf (x0 i) hi
  · have hi := Host.reduce_andi_all _ _ _ _ _ e2 i
    exact real_of_abs_lt_inf (x2 i) hi

end Cert.PreDecode

end
-- ==== Proof.lean ====
/-
  The certificate: a gradient-harmonised binary cross entropy. Elements are binned by |sigmoid(pred) − target| into ten
  bins; a bin's weight is (valid total / bin count) / (number of non-empty bins); the loss is the weighted sum of the
  valid elements' cross entropies over the valid total.

  The kernel streams the three arrays once in a lane-dense [327680, 128] view, twenty blocks of 16384 rows over a
  2 × 10 grid, accumulating per core the ten bin counts and the ten per-bin sums of weighted cross entropy; the host
  lines after it add the two cores, form the bin weights and the loss (Proof/KValue.lean: the result is Spec.Kform).
  The reference counts the bins by a scatter-add, looks each element's bin weight up by a gather and sums element by
  element (Proof/RefValue.lean: the result is Spec.Rform). At the ideal instance, for finite pred and weight
  (Proof/PreDecode.lean), the two are one extended real (Proof/Bridge.lean): the sigmoid's two spellings agree on
  the reals, every element lies in exactly one bin, and a sum of finitely many reals may be regrouped bin by bin.
  The three frames are the programs' runs with the results dropped; the idealization rewrote nothing.
-/
import proofs.«150911_j10273561772276_2_alg».proof.Defs
import proofs.«150911_j10273561772276_2_alg».proof.Proof.Gen.Kernel
import proofs.«150911_j10273561772276_2_alg».proof.Proof.Gen.Kernel.Frame
import proofs.«150911_j10273561772276_2_alg».proof.Proof.Gen.KernelIdeal
import proofs.«150911_j10273561772276_2_alg».proof.Proof.Gen.KernelIdeal.Frame
import proofs.«150911_j10273561772276_2_alg».proof.Proof.Gen.ReferenceIdeal
import proofs.«150911_j10273561772276_2_alg».proof.Proof.Gen.Pre_finite_inputs
import proofs.«150911_j10273561772276_2_alg».proof.Proof.RunP
import proofs.«150911_j10273561772276_2_alg».proof.Proof.ReadP
import proofs.«150911_j10273561772276_2_alg».proof.Proof.KValue
import proofs.«150911_j10273561772276_2_alg».proof.Proof.RefValue
import proofs.«150911_j10273561772276_2_alg».proof.Proof.Bridge
import proofs.«150911_j10273561772276_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both idealized programs end at the loss of the (agreeing, finite) arguments: the kernel at its bin-by-bin spelling,
    the reference at its element-by-element one, equal on finite inputs. -/
theorem algebraic : Cert.algebraic_KernelIdeal_ReferenceIdeal := by
  intro m ρ m' ρ' hpre hagree
  refine ⟨fun c => (fun _ => Cert.Spec.Kform (Cert.KernelIdeal.KV.X0 m c) (Cert.KernelIdeal.KV.X1 m c) (Cert.KernelIdeal.KV.X2 m c)),
    Cert.KernelIdeal.KV.run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hw⟩ := Cert.PreDecode.finite_of_pre _ _ _ (hpre c)
  rw [Cert.ReferenceIdeal.ReadP.val_main_v61_eq, (hagree c).1, (hagree c).2.1, (hagree c).2.2]
  refine (Cert.RefValue.result_eq _ _ _).trans ?_
  funext _
  exact (Cert.Spec.Kform_eq_Rform _ _ _ hx hw).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
